-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x256 : Shape := ⟨2, ![512, 256]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x256 : S_.BroadcastsInDim S512x256 (![] : Fin 0 → Fin S512x256.rank)
  reducesTo_S512x256_S_d0_1 : S512x256.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v14 : FVec F S8192 .f32) (main_v15 : FVec F S8192 .f32) : IVec S_ 1 :=
  let main_v16 : FVec F S8192 .f32 := addf main_v15 main_v14
  let main_cst_6 : FVec F S_ .f32 := constant S_ .f32 0x00000000#32
  let main_v17 : FVec F S8192 .f32 := broadcastInDim S8192 ![] bcast_S_S8192 main_cst_6
  let main_v18 : IVec S8192 1 := cmpf .ogt main_v16 main_v17
  let main_c_7 : IVec S_ 1 := constantI S_ 1 1#1
  let main_v19 : IVec S_ 1 := (fun x v => Host.reduce IntOp.andi x v reducesTo_S8192_S_d0 h_S_) main_v18 main_c_7
  let main_v20 : IVec S_ 1 := andi main_v13 main_v19
  main_v20

def fn {F : FTy → Type} [FloatOps F] (main_arg0 : FVec F S8192x8192 .f32) (main_arg1 : FVec F S8192x512 .f32) (main_arg2 : FVec F S512x256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_cst_4 : FVec F S_ .f32 := constant S_ .f32 0x00000000#32
  let main_v14 : FVec F S8192 .f32 := (fun x v => Host.reduceAdd x v reducesTo_S8192x8192_S8192_d1 h_S_) main_arg0 main_cst_4
  let main_cst_5 : FVec F S_ .f32 := constant S_ .f32 0x3F800000#32
  let main_v15 : FVec F S8192 .f32 := broadcastInDim S8192 ![] bcast_S_S8192 main_cst_5
  fn_part1 (F := F) main_v13 main_v14 main_v15
-- ==== Kernel.lean ====
abbrev S8192x8192 : Shape := ⟨2, ![8192, 8192]⟩
abbrev S8192x512 : Shape := ⟨2, ![8192, 512]⟩
abbrev S512x256 : Shape := ⟨2, ![512, 256]⟩
abbrev S8192x1 : Shape := ⟨2, ![8192, 1]⟩
abbrev S1024x4096 : Shape := ⟨2, ![1024, 4096]⟩
abbrev S1024x1 : Shape := ⟨2, ![1024, 1]⟩
abbrev S1024 : Shape := ⟨1, ![1024]⟩
abbrev S8192x256 : Shape := ⟨2, ![8192, 256]⟩
abbrev S2048x512 : Shape := ⟨2, ![2048, 512]⟩
abbrev S2048x1 : Shape := ⟨2, ![2048, 1]⟩
abbrev S2048x256 : Shape := ⟨2, ![2048, 256]⟩
abbrev S1024x2048 : Shape := ⟨2, ![1024, 2048]⟩
abbrev S1024x256 : Shape := ⟨2, ![1024, 256]⟩

abbrev nBuf : Space → Nat
  | .hbm => 6
  | .vmem => 18
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x256, .f32⟩
  | .hbm, ⟨3, _⟩ => ⟨S8192x1, .f32⟩
  | .hbm, ⟨4, _⟩ => ⟨S8192x256, .bf16⟩
  | .hbm, ⟨5, _⟩ => ⟨S8192x256, .f32⟩
  | .local _ .vmem, ⟨0, _⟩ => ⟨S1024x4096, .f32⟩
  | .local _ .vmem, ⟨1, _⟩ => ⟨S1024x4096, .f32⟩
  | .local _ .vmem, ⟨2, _⟩ => ⟨S1024x1, .f32⟩
  | .local _ .vmem, ⟨3, _⟩ => ⟨S1024x1, .f32⟩
  | .local _ .vmem, ⟨4, _⟩ => ⟨S2048x512, .f32⟩
  | .local _ .vmem, ⟨5, _⟩ => ⟨S2048x512, .f32⟩
  | .local _ .vmem, ⟨6, _⟩ => ⟨S512x256, .f32⟩
  | .local _ .vmem, ⟨7, _⟩ => ⟨S2048x1, .f32⟩
  | .local _ .vmem, ⟨8, _⟩ => ⟨S2048x1, .f32⟩
  | .local _ .vmem, ⟨9, _⟩ => ⟨S2048x256, .bf16⟩
  | .local _ .vmem, ⟨10, _⟩ => ⟨S2048x256, .bf16⟩
  | .local _ .vmem, ⟨11, _⟩ => ⟨S1024x2048, .f32⟩
  | .local _ .vmem, ⟨12, _⟩ => ⟨S1024x2048, .f32⟩
  | .local _ .vmem, ⟨13, _⟩ => ⟨S8192x256, .bf16⟩
  | .local _ .vmem, ⟨14, _⟩ => ⟨S1024x1, .f32⟩
  | .local _ .vmem, ⟨15, _⟩ => ⟨S1024x1, .f32⟩
  | .local _ .vmem, ⟨16, _⟩ => ⟨S1024x256, .f32⟩
  | .local _ .vmem, ⟨17, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 4], ![false, false]⟩

def k2_mult1 (i : grid2.Coords) : BitVec 32 :=
  let arg1 : BitVec 32 := BitVec.ofNat 32 (i 1).val
  let c2048_i32 : BitVec 32 := 2048#32
  let v2 : BitVec 32 := Scalar.muli arg1 c2048_i32
  v2
def k2_off1 (i : grid2.Coords) : Fin 2 → Nat :=
  let arg1 : BitVec 32 := BitVec.ofNat 32 (i 1).val
  let c2048_i32 : BitVec 32 := 2048#32
  let v2 : BitVec 32 := Scalar.muli arg1 c2048_i32
  let v3 : BitVec 32 := v2
  let v4 : Index := Scalar.indexCast v3
  let c0_1 : Index := 0#32
  ![v4.toNat, 0]
def k2_cond1 (i : grid2.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_2 : BitVec 32 := 0#32
  let v10 : BitVec 1 := Scalar.cmpi .ne v9 c0_i32_2
  v10

def k2_cond2 (i : grid2.Coords) : BitVec 1 :=
  let arg1 : BitVec 32 := BitVec.ofNat 32 (i 1).val
  let c0_i32_3 : BitVec 32 := 0#32
  let v11 : BitVec 1 := Scalar.cmpi .ne arg1 c0_i32_3
  let v12 : BitVec 32 := Scalar.extui v11
  let c0_i32_4 : BitVec 32 := 0#32
  let v13 : BitVec 1 := Scalar.cmpi .ne v12 c0_i32_4
  v13

def k2_cond3 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_5 : BitVec 32 := 0#32
  let v16 : BitVec 1 := Scalar.cmpi .ne v15 c0_i32_5
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1024x1_S1024x256 : S1024x1.Broadcasts S1024x256
  dot_S2048x512_S512x256_S2048x256_1_0_0_1_n_n_wf : DotDims.WF S2048x512 S512x256 S2048x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x8192.size a
  hwx0_0 : ∀ i : grid0.Coords, EltTy.bits .f32 = 32 ∨ (Rect.block (s := S8192x8192) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .f32 = 32 ∨ (Rect.block (s := S8192x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .bf16 = 32 ∨ (Rect.block (s := S8192x256) S2048x256.size (cc1_transform_3 i) (hinb1_3 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S2048x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S8192x256.size a
  hwx2_3 : ∀ i : grid2.Coords, EltTy.bits .f32 = 32 ∨ (Rect.block (s := S8192x256) S1024x256.size (cc2_transform_3 i) (hinb2_3 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond1 i == 1#1) && !(k2_cond2 i == 1#1) && !(k2_cond3 i == 1#1) | ⟨_ + 4, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S512x256 : Shape := ⟨2, ![512, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x256, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S8192x8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x256, .f32⟩
  | .hbm, ⟨16, _⟩ => ⟨S8192x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Region0.lean ====
/-
  The degree pass of the graph-convolution kernel, at any float instance: the pass computes, row block by
  row block, d = (1 + row sums of the matrix)^(-1/2) over a grid of 8 row blocks × 2 column blocks, the output block
  zeroed at the first column block, the row sums of each column block added into it, and the reciprocal square root of
  one plus the total stored at the second. Here: the body's run in each of its two cases (the column coordinate 0 or
  1), what the output block's staging buffer holds after each point, the pipeline's proof data and the body
  obligation, all at a parameter: the buffer contents when the pass is entered.
-/
import proofs.«152646_j44229573214372_2_alg».proof.Proof.Gen.Kernel.Launch
import proofs.«152646_j44229573214372_2_alg».proof.Proof.Gen.Kernel.Skeleton
import proofs.«152646_j44229573214372_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree pass: row sums of the matrix accumulated over the two column blocks, then (1 + ·)^(-1/2)

The grid is 8 × 2: point t = 2·i + k sees block (i, k) of the matrix (1024 rows, 4096 columns) and block i of the
output column (1024 rows). At k = 0 the output block is zeroed and the block's row sums are added; at k = 1 the
second block's row sums are added and the reciprocal square root of one plus the total is stored. -/

/-- The offsets of every access of the body: zero on both axes. -/
theorem hz0 : (![0, 0] : Fin 2 → Nat) = fun _ => 0 := funext fun a => by fin_cases a <;> rfl

/-! ## The body's branch conditions -/

/-- The first branch condition of the body: the column coordinate of the grid point is 0. -/
abbrev cond0_0 (i : grid0.Coords) : Prop := (Scalar.cmpi .ne (Scalar.extui (Scalar.cmpi .eq (BitVec.ofNat 32 (i 1).val) 0#32)) 0#32) = 1#1
/-- The second branch condition: the column coordinate is 1. -/
abbrev cond0_1 (i : grid0.Coords) : Prop := (Scalar.cmpi .ne (Scalar.extui (Scalar.cmpi .eq (BitVec.ofNat 32 (i 1).val) 1#32)) 0#32) = 1#1

/-- The first holds at the even points, -/
theorem hcond0_0 : ∀ t : Fin cfg0.N, cond0_0 (grid0.coords t) ↔ t.val % 2 = 0 :=
  (by decide +kernel : ∀ t : Fin grid0.N, cond0_0 (grid0.coords t) ↔ t.val % 2 = 0)
/-- the second at the odd ones. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## What the body leaves in the output block -/

/-- At a first column block x: zero plus the row sums of x. -/
def outFirst0 (x : Vec F S1024x4096 .f32) : Vec F S1024x1 .f32 := k0_pay2 (k0_pay1 (F := F)) x

/-- At a second column block x, over the running contents acc: the reciprocal square root of one plus
    (acc plus the row sums of x). -/
def outSecond0 (x : Vec F S1024x4096 .f32) (acc : Vec F S1024x1 .f32) : Vec F S1024x1 .f32 := k0_pay3 (k0_pay2 acc x)

/-! ## The body's run, case by case -/

set_option maxHeartbeats 1000000 in
/-- The body at a point of column coordinate 0, on whole staging memrefs, the matrix block's at contents x0 and the
    output block's at anything, runs to the continuation holding the first as it was and the second at outFirst0 x0:
    both stores overwrite the whole block, and the load between them reads the zero block back. -/
theorem run0_first (c : Dev nD) (i : grid0.Coords) (arg2 : Memref sig .tc .vmem S1024x4096 .f32) (harg2 : arg2.IsWhole) (arg3 : Memref sig .tc .vmem S1024x1 .f32) (harg3 : arg3.IsWhole)
    (hc0 : cond0_0 i) (hc1 : ¬cond0_1 i) (x0 : Vec F S1024x4096 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outFirst0 x0)) -∗ K ⟨⟩))
      ⊢ wp frame (wpE (defs₀ (F := F)) Variants.none c none) E (cc0__degree_kernel i arg2 harg2 arg3 harg3) K := by
  simp only [cc0__degree_kernel_eq_skeleton]; unfold cc0__degree_kernel_skel
  unfold owns
  iintro ⟨⟨%f0, %hf0, H0⟩, ⟨%d1, %f1, -, H1⟩, Hk⟩
  obtain rfl := harg2.eq_unread hf0
  sl_exec (disch := first | exact hc0 | exact hc1)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_cons_self, View.mem_set_unit_zero hz0 inb_S1024x1_S1024x1_0_0 y⟩),
    View.canon_cons_unit_zero (S := S1024x1) hz0]
  sl_unfold_run_names
  rw [View.readCov_unit_zero (S := S1024x1) _ hz0]
  unfold outFirst0
  simp only [View.readAt_eq_ld, harg2.read_unread, View.ld_unit_zero (S := S1024x4096) hz0]

set_option maxHeartbeats 1000000 in
/-- The body at a point of column coordinate 1, the output block's memref at the running contents acc, runs to the
    continuation holding it at outSecond0 x0 acc: the sum is stored over the whole block, read back, and the
    reciprocal square root of one plus it stored over the whole block. -/
theorem run0_second (c : Dev nD) (i : grid0.Coords) (arg2 : Memref sig .tc .vmem S1024x4096 .f32) (harg2 : arg2.IsWhole) (arg3 : Memref sig .tc .vmem S1024x1 .f32) (harg3 : arg3.IsWhole)
    (hc0 : ¬cond0_0 i) (hc1 : cond0_1 i) (x0 : Vec F S1024x4096 .f32) (acc : Vec F S1024x1 .f32) (E : Set ℕ) (K : PUnit → sProp 𝕄) :
    iprop(owns (c : Thread nD τ) arg2 fullShare x0 ∗ owns (c : Thread nD τ) arg3 fullShare acc
        ∗ (iprop(owns (c : Thread nD τ) arg2 fullShare x0 ∗ owns (c : Thread nD τ) arg3 fullShare (outSecond0 x0 acc)) -∗ K ⟨⟩))
      ⊢ wp frame (wpE (defs₀ (F := F)) Variants.none c none) E (cc0__degree_kernel i arg2 harg2 arg3 harg3) K := by
  simp only [cc0__degree_kernel_eq_skeleton]; unfold cc0__degree_kernel_skel
  unfold owns
  iintro ⟨⟨%f0, %hf0, H0⟩, ⟨%f1, %hf1, H1⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_cons_self, View.mem_set_unit_zero hz0 inb_S1024x1_S1024x1_0_0 y⟩),
    View.canon_cons_unit_zero (S := S1024x1) hz0]
  sl_unfold_run_names
  rw [View.readCov_unit_zero (S := S1024x1) _ hz0]
  unfold outSecond0
  simp only [View.readAt_eq_ld, harg2.read_unread, harg3.read_unread, View.ld_unit_zero (S := S1024x4096) hz0, View.ld_unit_zero (S := S1024x1) hz0]

-- the buffer contents when the pass is entered: a parameter of everything below
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix window's current staging buffer holds its block at every point, for any proof data whose array is
    the entry contents and whose body leaves the block in place: the window is fetched at every point, uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the output block's buffer holds after each point -/

/-- The point before t (t itself at the first point). -/
abbrev prev0 (t : Fin cfg0.N) : Fin cfg0.N := ⟨t.val - 1, Nat.lt_of_le_of_lt (Nat.sub_le _ _) t.isLt⟩

/-- After an even point t = 2·i: zero plus the row sums of block (i, 0). After an odd point t = 2·i + 1: the
    reciprocal square root of one plus (what point 2·i left plus the row sums of block (i, 1)). -/
def outAt0 (c : Dev nD) (t : Fin cfg0.N) : Vec F S1024x1 .f32 :=
  if t.val % 2 = 0 then outFirst0 (iblk0 V c 0 t) else outSecond0 (iblk0 V c 0 t) (outFirst0 (iblk0 V c 0 (prev0 t)))

theorem outAt0_even (c : Dev nD) (t : Fin cfg0.N) (h : t.val % 2 = 0) : outAt0 V c t = outFirst0 (iblk0 V c 0 t) := by
  unfold outAt0; rw [if_pos h]

theorem outAt0_odd (c : Dev nD) (t : Fin cfg0.N) (h : ¬t.val % 2 = 0) :
    outAt0 V c t = outSecond0 (iblk0 V c 0 t) (outFirst0 (iblk0 V c 0 (prev0 t))) := by
  unfold outAt0; rw [if_neg h]

/-! ## The pipeline's proof data -/

/-- The proof data of the degree pass on core c: the arrays as the region finds them; after the body at point t the
    matrix window's buffer at its block and the output window's at outAt0; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt0 V c t
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = outAt0 V c t := by dsimp only [dat0]

/-- The matrix window's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At an odd point the output window's current staging buffer holds what the body left at the point before: the
    point is not the first, the buffer was not written back between (write-backs happen after odd points only), the
    window is live and uncut. -/
theorem before0_1_odd (c : Dev nD) (t : Fin cfg0.N) (h0 : ¬t.val % 2 = 0) (d) :
    (dat0 V c).before 1 t d = outFirst0 (iblk0 V c 0 (prev0 t)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  rw [after0_1, outAt0_even V c _ (by dsimp only; omega)]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: the matrix window's memref holds its block; the parity of the point says which case it
    is in, and at an odd point the output window's memref holds what the point before left; so the case's run
    applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 16 := lt_of_lt_of_eq t.isLt (show cfg0.N = 16 from N_0)
  by_cases h0 : t.val % 2 = 0
  · rw [outAt0_even V c t h0]
    iintro ⟨HΦ, Ho, ⟨%d0, H0⟩, ⟨%d1, H1⟩⟩
    iapply (run0_first c (grid0.coords t) _ _ _ _ ((hcond0_0 t).mpr h0) (fun h => by have := (hcond0_1 t).mp h; omega) (iblk0 V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [outAt0_odd V c t h0]
    simp only [before0_1_odd V c t h0]
    iintro ⟨HΦ, Ho, ⟨%d0, H0⟩, ⟨%d1, H1⟩⟩
    iapply (run0_second c (grid0.coords t) _ _ _ _ (fun h => h0 ((hcond0_0 t).mp h)) ((hcond0_1 t).mpr (by omega)) (iblk0 V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The second pass of the kernel, the scaled support: at each of its four grid points the body reads a block of 2048 rows
  of X, the whole of W and the matching 2048 degree scales, and stores (X_blk · W) · d row by row into the output's block.
  Nothing is carried from point to point and the one store covers the whole block, so what the body leaves in the output's
  staging buffer is its one payload of the three blocks it read.  Stated at the contents `V` the region finds in the buffers.
-/
import proofs.«152646_j44229573214372_2_alg».proof.Proof.Gen.Kernel.Launch
import proofs.«152646_j44229573214372_2_alg».proof.Proof.Gen.Kernel.Skeleton
import proofs.«152646_j44229573214372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body stores through: the whole output block. -/
abbrev r1_out : Rect S2048x256 := Rect.unit (s := S2048x256) ![0, 0] S2048x256.size inb_S2048x256_S2048x256_0_0
abbrev r1_x : Rect S2048x512 := Rect.unit (s := S2048x512) ![0, 0] S2048x512.size inb_S2048x512_S2048x512_0_0
abbrev r1_w : Rect S512x256 := Rect.unit (s := S512x256) ![0, 0] S512x256.size inb_S512x256_S512x256_0_0
abbrev r1_d : Rect S2048x1 := Rect.unit (s := S2048x1) ![0, 0] S2048x1.size inb_S2048x1_S2048x1_0_0

/-- What the body leaves in the output's staging buffer: its one store, of the payload of the three loaded blocks. -/
def out1_3 (x0 : Vec F S2048x512 .f32) (x1 : Vec F S512x256 .f32) (x2 : Vec F S2048x1 .f32) : Vec F S2048x256 .bf16 :=
  View.canon [⟨r1_out, k1_pay1 (View.ld x0 r1_x) (View.ld x1 r1_w) (View.ld x2 r1_d)⟩]

/-- The store covers the block. -/
theorem cover1_3 (p0 : Vec F S2048x256 .bf16) (y : S2048x256.Idx) :
    ∃ pc ∈ ([⟨r1_out, p0⟩] : List (View.Piece (Elt F) S2048x256 .bf16)), y ∈ pc.1.set :=
  View.cover_of_tiled [⟨r1_out, p0⟩] S2048x256.size (by rfl) y

set_option maxHeartbeats 1000000 in
/-- The body on whole staging memrefs: the inputs' contents stay, the output's buffer ends at `out1_3` of them. -/
theorem sound_kernel1 (c : Dev nD) (E : Set ℕ) (i : grid1.Coords)
    (arg1 : Memref sig .tc .vmem S2048x512 .f32) (harg1 : arg1.IsWhole) (arg2 : Memref sig .tc .vmem S512x256 .f32) (harg2 : arg2.IsWhole)
    (arg3 : Memref sig .tc .vmem S2048x1 .f32) (harg3 : arg3.IsWhole) (arg4 : Memref sig .tc .vmem S2048x256 .bf16) (harg4 : arg4.IsWhole)
    (x0 : Vec F S2048x512 .f32) (x1 : Vec F S512x256 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__support_kernel i arg1 harg1 arg2 harg2 arg3 harg3 arg4 harg4) K := by
  simp only [cc1__support_kernel_eq_skeleton]; unfold cc1__support_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pass on core `c`: the arrays as the region finds them; after the body each input's buffer at its
    block, the output's at the payload of the point's three blocks; the rest untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2Base.lean ====
/-
  The aggregation pass (third region): out = (A · S) · d, accumulated over four column panels of A.
  What the runs of its body share: each window's block at a point, the three branch conditions of the body in
  closed form over the point's position in its row of the grid (k = t mod 4), that the output window is idle at
  no point, and that every input's current staging buffer holds its block.
-/
import proofs.«152646_j44229573214372_2_alg».proof.Proof.Gen.Kernel.Launch
import proofs.«152646_j44229573214372_2_alg».proof.Proof.Gen.Kernel.Skeleton
import proofs.«152646_j44229573214372_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of A (window 0) is in its current staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole scaled support (window 1, fetched once) is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The block of the degree scales (window 2, fetched at the first point of each row of the grid) is in its
    current staging buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions, over k = t mod 4 -/

/-- The first branch (store the partial product) is taken exactly at k = 0. -/
theorem hcond2_1 : ∀ t : Fin cfg2.N, k2_cond1 (grid2.coords t) = 1#1 ↔ t.val % 4 = 0 :=
  (by decide +kernel : ∀ t : Fin grid2.N, k2_cond1 (grid2.coords t) = 1#1 ↔ t.val % 4 = 0)
/-- The second branch (add the partial product) is taken exactly at k ≠ 0. -/
theorem hcond2_2 : ∀ t : Fin cfg2.N, k2_cond2 (grid2.coords t) = 1#1 ↔ ¬t.val % 4 = 0 :=
  (by decide +kernel : ∀ t : Fin grid2.N, k2_cond2 (grid2.coords t) = 1#1 ↔ ¬t.val % 4 = 0)
/-- The third branch (scale the rows) is taken exactly at k = 3. -/
theorem hcond2_3 : ∀ t : Fin cfg2.N, k2_cond3 (grid2.coords t) = 1#1 ↔ t.val % 4 = 3 :=
  (by decide +kernel : ∀ t : Fin grid2.N, k2_cond3 (grid2.coords t) = 1#1 ↔ t.val % 4 = 3)

/-- At every point one of the branches is taken: the output window is idle nowhere. -/
theorem idle2_3 : ∀ i : grid2.Coords, cfg2.idle (3 : Fin cfg2.W) i = false := by decide +kernel
theorem idle2_3_at (t : Fin cfg2.N) : cfg2.idle (3 : Fin cfg2.W) (cfg2.grid.coords t) = false := idle2_3 _

/-! ## The staging memrefs at a point -/

/-- One staging buffer of the output window, through which its contents are stated. -/
abbrev VO2_3 : View sig .tc .vmem S1024x256 .f32 := (Memref.whole cc2_stg3_0 : Memref sig .tc .vmem S1024x256 .f32).view
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x256 .f32 := win2_3.stage (cfg2.slots t 3)
abbrev hs2_3 (t : Fin cfg2.N) : (ms2_3 t).IsWhole := hstage2_3 ((cfg2.slots t 3).cast nbuf2_3)

end Cert.Kernel.Hand

end
-- ==== Proof.K.Region2RunA.lean ====
/-
  The aggregation pass's body at the first point of a row of the grid (k = 0): the partial product of the first
  panel is stored over whatever the output's staging buffer held.
-/
import proofs.«152646_j44229573214372_2_alg».proof.Proof.K.Region2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The pieces the body's stores leave in the output's staging memref (last first) in this case, WITH the proof
    that on whole staging memrefs — the three inputs' at their contents, the output's at anything —
    the body runs to the continuation holding the inputs' as they were and the output's with those pieces written. -/
noncomputable def kernelRun2_A (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole)
    (hc1 : k2_cond1 i = 1#1) (hc2 : ¬k2_cond2 i = 1#1) (hc3 : ¬k2_cond3 i = 1#1)
    (x0 : Vec F S1024x2048 .f32) (x1 : Vec F S8192x256 .bf16) (x2 : Vec F S1024x1 .f32) :
    { L3 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__agg_kernel i arg2 harg2 arg3 harg3 arg4 harg4 arg5 harg5) K } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.Region2RunB.lean ====
/-
  The aggregation pass's body at a middle point of a row of the grid (k = 1, 2): the partial product of the
  panel is added to what the output's staging buffer holds.
-/
import proofs.«152646_j44229573214372_2_alg».proof.Proof.K.Region2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The pieces the body's stores leave in the output's staging memref (last first) in this case, WITH the proof
    that on whole staging memrefs — the three inputs' at their contents, the output's at its running contents —
    the body runs to the continuation holding the inputs' as they were and the output's with those pieces written. -/
noncomputable def kernelRun2_B (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole)
    (hc1 : ¬k2_cond1 i = 1#1) (hc2 : k2_cond2 i = 1#1) (hc3 : ¬k2_cond3 i = 1#1)
    (x0 : Vec F S1024x2048 .f32) (x1 : Vec F S8192x256 .bf16) (x2 : Vec F S1024x1 .f32) (xo : Vec F S1024x256 .f32) :
    { L3 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__agg_kernel i arg2 harg2 arg3 harg3 arg4 harg4 arg5 harg5) K } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.Region2RunC.lean ====
/-
  The aggregation pass's body at the last point of a row of the grid (k = 3): the partial product of the last
  panel is added to what the output's staging buffer holds, and each row is then scaled by its degree scale.
-/
import proofs.«152646_j44229573214372_2_alg».proof.Proof.K.Region2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The pieces the body's stores leave in the output's staging memref (last first) in this case, WITH the proof
    that on whole staging memrefs — the three inputs' at their contents, the output's at its running contents —
    the body runs to the continuation holding the inputs' as they were and the output's with those pieces written. -/
noncomputable def kernelRun2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole)
    (hc1 : ¬k2_cond1 i = 1#1) (hc2 : k2_cond2 i = 1#1) (hc3 : k2_cond3 i = 1#1)
    (x0 : Vec F S1024x2048 .f32) (x1 : Vec F S8192x256 .bf16) (x2 : Vec F S1024x1 .f32) (xo : Vec F S1024x256 .f32) :
    { L3 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__agg_kernel i arg2 harg2 arg3 harg3 arg4 harg4 arg5 harg5) K } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.Region2.lean ====
/-
  The aggregation pass (third region), out = (A · S) · d: its frame half, at the contents `V` the region finds in
  the buffers.  The output block of a row of the grid is accumulated over the row's four points: what the output's
  staging buffer holds after each point is defined by recursion on the point (the first point of a row stores, the
  later ones add to what the point before left, the last one also scales the rows); the inputs' buffers hold their
  blocks throughout.  From these the proof data of the pipeline and the body's obligation at every point.
-/
import proofs.«152646_j44229573214372_2_alg».proof.Proof.K.Region2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first point of a row of the grid (k = 0) the pieces the body stores tile the output block, so they cover it. -/
theorem cover2_A_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : k2_cond1 i = 1#1) (hc2 : ¬k2_cond2 i = 1#1) (hc3 : ¬k2_cond3 i = 1#1)
    (x0 : Vec F S1024x2048 .f32) (x1 : Vec F S8192x256 .bf16) (x2 : Vec F S1024x1 .f32) (y : S1024x256.Idx) :
    ∃ pc ∈ (kernelRun2_A c i arg2 harg2 arg3 harg3 arg4 harg4 arg5 harg5 hc1 hc2 hc3 x0 x1 x2).1, y ∈ pc.1.set :=
  View.cover_of_tiledL (kernelRun2_A c i arg2 harg2 arg3 harg3 arg4 harg4 arg5 harg5 hc1 hc2 hc3 x0 x1 x2).1 S1024x256.size (by sl_kernel_rfl) y

/-- What the body leaves in the output's staging buffer at the first point of a row of the grid (k = 0): its pieces read back. -/
def out2_A_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : k2_cond1 i = 1#1) (hc2 : ¬k2_cond2 i = 1#1) (hc3 : ¬k2_cond3 i = 1#1)
    (x0 : Vec F S1024x2048 .f32) (x1 : Vec F S8192x256 .bf16) (x2 : Vec F S1024x1 .f32) : Vec F S1024x256 .f32 :=
  VO2_3.read (Elt F) (VO2_3.writes (Elt F) VO2_3.junk (kernelRun2_A c i arg2 harg2 arg3 harg3 arg4 harg4 arg5 harg5 hc1 hc2 hc3 x0 x1 x2).1)

/-- At a middle point of a row of the grid (k = 1, 2) the pieces the body stores tile the output block, so they cover it. -/
theorem cover2_B_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : ¬k2_cond1 i = 1#1) (hc2 : k2_cond2 i = 1#1) (hc3 : ¬k2_cond3 i = 1#1)
    (x0 : Vec F S1024x2048 .f32) (x1 : Vec F S8192x256 .bf16) (x2 : Vec F S1024x1 .f32) (xo : Vec F S1024x256 .f32) (y : S1024x256.Idx) :
    ∃ pc ∈ (kernelRun2_B c i arg2 harg2 arg3 harg3 arg4 harg4 arg5 harg5 hc1 hc2 hc3 x0 x1 x2 xo).1, y ∈ pc.1.set :=
  View.cover_of_tiledL (kernelRun2_B c i arg2 harg2 arg3 harg3 arg4 harg4 arg5 harg5 hc1 hc2 hc3 x0 x1 x2 xo).1 S1024x256.size (by sl_kernel_rfl) y

/-- What the body leaves in the output's staging buffer at a middle point of a row of the grid (k = 1, 2): its pieces read back. -/
def out2_B_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : ¬k2_cond1 i = 1#1) (hc2 : k2_cond2 i = 1#1) (hc3 : ¬k2_cond3 i = 1#1)
    (x0 : Vec F S1024x2048 .f32) (x1 : Vec F S8192x256 .bf16) (x2 : Vec F S1024x1 .f32) (xo : Vec F S1024x256 .f32) : Vec F S1024x256 .f32 :=
  VO2_3.read (Elt F) (VO2_3.writes (Elt F) VO2_3.junk (kernelRun2_B c i arg2 harg2 arg3 harg3 arg4 harg4 arg5 harg5 hc1 hc2 hc3 x0 x1 x2 xo).1)

/-- At the last point of a row of the grid (k = 3) the pieces the body stores tile the output block, so they cover it. -/
theorem cover2_C_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : ¬k2_cond1 i = 1#1) (hc2 : k2_cond2 i = 1#1) (hc3 : k2_cond3 i = 1#1)
    (x0 : Vec F S1024x2048 .f32) (x1 : Vec F S8192x256 .bf16) (x2 : Vec F S1024x1 .f32) (xo : Vec F S1024x256 .f32) (y : S1024x256.Idx) :
    ∃ pc ∈ (kernelRun2_C c i arg2 harg2 arg3 harg3 arg4 harg4 arg5 harg5 hc1 hc2 hc3 x0 x1 x2 xo).1, y ∈ pc.1.set :=
  View.cover_of_tiledL (kernelRun2_C c i arg2 harg2 arg3 harg3 arg4 harg4 arg5 harg5 hc1 hc2 hc3 x0 x1 x2 xo).1 S1024x256.size (by sl_kernel_rfl) y

/-- What the body leaves in the output's staging buffer at the last point of a row of the grid (k = 3): its pieces read back. -/
def out2_C_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : ¬k2_cond1 i = 1#1) (hc2 : k2_cond2 i = 1#1) (hc3 : k2_cond3 i = 1#1)
    (x0 : Vec F S1024x2048 .f32) (x1 : Vec F S8192x256 .bf16) (x2 : Vec F S1024x1 .f32) (xo : Vec F S1024x256 .f32) : Vec F S1024x256 .f32 :=
  VO2_3.read (Elt F) (VO2_3.writes (Elt F) VO2_3.junk (kernelRun2_C c i arg2 harg2 arg3 harg3 arg4 harg4 arg5 harg5 hc1 hc2 hc3 x0 x1 x2 xo).1)

/-! ## The case a point is in, from k = t mod 4 -/

theorem hA2_1 (t : Fin cfg2.N) (h0 : t.val % 4 = 0) : k2_cond1 (grid2.coords t) = 1#1 := (hcond2_1 t).mpr h0
theorem hA2_2 (t : Fin cfg2.N) (h0 : t.val % 4 = 0) : ¬k2_cond2 (grid2.coords t) = 1#1 := fun h => (hcond2_2 t).mp h h0
theorem hA2_3 (t : Fin cfg2.N) (h0 : t.val % 4 = 0) : ¬k2_cond3 (grid2.coords t) = 1#1 := fun h => by
  have := (hcond2_3 t).mp h; omega
theorem hB2_1 (t : Fin cfg2.N) (h0 : ¬t.val % 4 = 0) : ¬k2_cond1 (grid2.coords t) = 1#1 := fun h => h0 ((hcond2_1 t).mp h)
theorem hB2_2 (t : Fin cfg2.N) (h0 : ¬t.val % 4 = 0) : k2_cond2 (grid2.coords t) = 1#1 := (hcond2_2 t).mpr h0
theorem hB2_3 (t : Fin cfg2.N) (h3 : ¬t.val % 4 = 3) : ¬k2_cond3 (grid2.coords t) = 1#1 := fun h => h3 ((hcond2_3 t).mp h)
theorem hC2_3 (t : Fin cfg2.N) (h3 : t.val % 4 = 3) : k2_cond3 (grid2.coords t) = 1#1 := (hcond2_3 t).mpr h3

/-! ## What the output's staging buffer holds after each point -/

/-- THE ACCUMULATION over a row of the grid: after the point at position `n`, the case k = n mod 4 selects, run at the
    point's memrefs and input blocks, and for k ≠ 0 over what the point before left. -/
def outsAt2 (c : Dev nD) : (n : ℕ) → n < cfg2.N → Vec F S1024x256 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (hA2_1 ⟨0, hn⟩ (Nat.zero_mod _)) (hA2_2 ⟨0, hn⟩ (Nat.zero_mod _)) (hA2_3 ⟨0, hn⟩ (Nat.zero_mod _)) (iblk2 V c 0 ⟨0, hn⟩) (iblk2 V c 1 ⟨0, hn⟩) (iblk2 V c 2 ⟨0, hn⟩)
  | n + 1, hn =>
    if h0 : (n + 1) % 4 = 0 then
      out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (hA2_1 ⟨n + 1, hn⟩ h0) (hA2_2 ⟨n + 1, hn⟩ h0) (hA2_3 ⟨n + 1, hn⟩ h0) (iblk2 V c 0 ⟨n + 1, hn⟩) (iblk2 V c 1 ⟨n + 1, hn⟩) (iblk2 V c 2 ⟨n + 1, hn⟩)
    else if h3 : (n + 1) % 4 = 3 then
      out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (hB2_1 ⟨n + 1, hn⟩ h0) (hB2_2 ⟨n + 1, hn⟩ h0) (hC2_3 ⟨n + 1, hn⟩ h3) (iblk2 V c 0 ⟨n + 1, hn⟩) (iblk2 V c 1 ⟨n + 1, hn⟩) (iblk2 V c 2 ⟨n + 1, hn⟩) (outsAt2 c n (Nat.lt_of_succ_lt hn))
    else
      out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (hB2_1 ⟨n + 1, hn⟩ h0) (hB2_2 ⟨n + 1, hn⟩ h0) (hB2_3 ⟨n + 1, hn⟩ h3) (iblk2 V c 0 ⟨n + 1, hn⟩) (iblk2 V c 1 ⟨n + 1, hn⟩) (iblk2 V c 2 ⟨n + 1, hn⟩) (outsAt2 c n (Nat.lt_of_succ_lt hn))

theorem outsAt2_A (c : Dev nD) (t : Fin cfg2.N) (h0 : t.val % 4 = 0) :
    outsAt2 V c t.val t.isLt = out2_A_3 c (grid2.coords t) (ms2_0 t) (hs2_0 t) (ms2_1 t) (hs2_1 t) (ms2_2 t) (hs2_2 t) (ms2_3 t) (hs2_3 t) (hA2_1 t h0) (hA2_2 t h0) (hA2_3 t h0) (iblk2 V c 0 t) (iblk2 V c 1 t) (iblk2 V c 2 t) := by
  obtain ⟨n, hn⟩ := t
  cases n with
  | zero => exact rfl
  | succ n => exact (dif_pos h0).trans rfl

theorem outsAt2_B (c : Dev nD) (t : Fin cfg2.N) (h0 : ¬t.val % 4 = 0) (h3 : ¬t.val % 4 = 3) :
    outsAt2 V c t.val t.isLt = out2_B_3 c (grid2.coords t) (ms2_0 t) (hs2_0 t) (ms2_1 t) (hs2_1 t) (ms2_2 t) (hs2_2 t) (ms2_3 t) (hs2_3 t) (hB2_1 t h0) (hB2_2 t h0) (hB2_3 t h3) (iblk2 V c 0 t) (iblk2 V c 1 t) (iblk2 V c 2 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_neg h3)).trans rfl

theorem outsAt2_C (c : Dev nD) (t : Fin cfg2.N) (h0 : ¬t.val % 4 = 0) (h3 : t.val % 4 = 3) :
    outsAt2 V c t.val t.isLt = out2_C_3 c (grid2.coords t) (ms2_0 t) (hs2_0 t) (ms2_1 t) (hs2_1 t) (ms2_2 t) (hs2_2 t) (ms2_3 t) (hs2_3 t) (hB2_1 t h0) (hB2_2 t h0) (hC2_3 t h3) (iblk2 V c 0 t) (iblk2 V c 1 t) (iblk2 V c 2 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_pos h3)).trans rfl

/-! ## The pipeline's proof data -/

/-- The proof data of the aggregation pipeline on core `c`: the arrays as the region finds them; after the body at a
    point each input's buffer at its block and the output's at the accumulation; the invariant the scoped rest and
    the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- At a point that is not the first of its row the output's current staging buffer holds what the body left at the
    point before: the block index has not moved, the buffer was not written back between, the window is idle nowhere. -/
theorem before2_3_acc (c : Dev nD) (t : Fin cfg2.N) (h0 : ¬t.val % 4 = 0) (d) :
    (dat2 V c).before 3 t d = outsAt2 V c (t.val - 1) (Nat.lt_of_le_of_lt (Nat.sub_le _ _) t.isLt) := by
  have hN : t.val < 32 := lt_of_lt_of_eq t.isLt (show cfg2.N = 32 from N_2)
  rw [Dat.before_out_kept _ 3 rfl t (by omega) (Bool.eq_false_iff.mpr fun h => by have := (flush2_3 _).mp h; dsimp only at this; omega)
    idle2_3 (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 1600000 in
/-- The body at any point: the inputs' memrefs hold their blocks; k = t mod 4 says which case the point is in, and for
    k ≠ 0 the output's memref holds what the point before left; so that case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  by_cases h0 : t.val % 4 = 0
  ·
    rw [outsAt2_A V c t h0]
    unfold out2_A_3
    iintro ⟨HΦ, Ho, ⟨%d0, H0⟩, ⟨%d1, H1⟩, ⟨%d2, H2⟩, ⟨%d3, H3⟩⟩
    iapply ((kernelRun2_A c (grid2.coords t) _ _ _ _ _ _ _ _ (hA2_1 t h0) (hA2_2 t h0) (hA2_3 t h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_A_3 c _ _ _ _ _ _ _ _ _ _ _ _ _ _ _)
  · simp only [before2_3_acc V c t h0]
    by_cases h3 : t.val % 4 = 3
    ·
      rw [outsAt2_C V c t h0 h3]
      unfold out2_C_3
      iintro ⟨HΦ, Ho, ⟨%d0, H0⟩, ⟨%d1, H1⟩, ⟨%d2, H2⟩, ⟨%d3, H3⟩⟩
      iapply ((kernelRun2_C c (grid2.coords t) _ _ _ _ _ _ _ _ (hB2_1 t h0) (hB2_2 t h0) (hC2_3 t h3) (iblk2 V c 0 t) (iblk2 V c 1 t) (iblk2 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _)
    ·
      rw [outsAt2_B V c t h0 h3]
      unfold out2_B_3
      iintro ⟨HΦ, Ho, ⟨%d0, H0⟩, ⟨%d1, H1⟩, ⟨%d2, H2⟩, ⟨%d3, H3⟩⟩
      iapply ((kernelRun2_B c (grid2.coords t) _ _ _ _ _ _ _ _ (hB2_1 t h0) (hB2_2 t h0) (hB2_3 t h3) (iblk2 V c 0 t) (iblk2 V c 1 t) (iblk2 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_B_3 c _ _ _ _ _ _ _ _ _ _ _ _ _ _ _ _)

/-- The output window is idle at no point, in the form the obligation's case split meets it. -/
theorem idle2_3_pt (t : Fin cfg2.N) : idle2 3 (grid2.coords t) = false := idle2_3 _

/-- The library's body obligation, at every point. -/
theorem body_obligation2 (c : Dev nD) : BodyObligation (dat2 (F := F) V c) (defs₀ (F := F)) Variants.none () Set.univ := fun t => by
  rw [bigSep_W2, bigSep_W2]
  simp only [idle2_3_pt]
  rw [idle2_3_pt t]
  exact sound_body2 V c t

end Cert.Kernel.Hand

end
-- ==== Proof.K.Run.lean ====
/-
  The kernel program's run, assembled: its @main is three passes one after the other — the degree scales, the scaled
  support, the aggregation — with no host operation between them.  Between two passes core `c` holds every unscoped buffer
  at a known valuation: the launch memory, then after each pass that pass's arrays at what its write-backs leave
  (the fold of the flushed blocks over the array as the pass found it) and every other buffer unchanged.  The three
  passes are the three segments of the run; the final memory is read back off the last valuation.
-/
import proofs.«152646_j44229573214372_2_alg».proof.Proof.K.Region0
import proofs.«152646_j44229573214372_2_alg».proof.Proof.K.Region1
import proofs.«152646_j44229573214372_2_alg».proof.Proof.K.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the passes -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After pass 0: its arrays at what its write-backs leave, every other buffer as the pass found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After pass 1: its arrays at what its write-backs leave, every other buffer as the pass found it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After pass 2: its arrays at what its write-backs leave, every other buffer as the pass found it. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the core's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The arguments end as launched: a pass reads an argument through an input window, or not at all -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat2 (V2 m ρ) c).arrAt_in 0 rfl _).trans (A_eq2 (V2 m ρ) c 0))
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W3_main_arg1 (c : Dev nD) : W3 m ρ c (Proc.devRef .tc main_arg1) = m ((c : Thread nD τ).loc main_arg1) :=
  (W3_of_ne m ρ c main_arg1 (by decide)).trans (W2_main_arg1 m ρ c)

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl

theorem W3_main_arg2 (c : Dev nD) : W3 m ρ c (Proc.devRef .tc main_arg2) = m ((c : Thread nD τ).loc main_arg2) :=
  (W3_of_ne m ρ c main_arg2 (by decide)).trans (W2_main_arg2 m ρ c)

/-! ## The proof data family and the thread state -/

/-- No pass has a prefetched table. -/
abbrev adm : (p : Fin 3) → (pcfgs (F := F) p).Adm := fun p => (cfgs p).toPCfg_adm
/-- Every pass's proof data, each at the contents its pass finds. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at some state. -/
abbrev Tₙ (c : Dev nD) : sProp 𝕄 := iprop(StableHlo.held (c : Thread nD τ) (Pipeline.ucRefs τ sig) (W3 m ρ c) ∗ ∃ r, prngReg c r)

/-! ## The passes as segments -/

set_option backward.isDefEq.respectTransparency.types false in
/-- Pass 0 as a segment of the run: entered with every unscoped buffer at `W0`, left with them at `W1`. Its arrays are
    split out of the unscoped buffers on entry and put back, at what the write-backs leave, on exit; the generator register
    rides through the body's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment of the run: entered with every unscoped buffer at `W1`, left with them at `W2`. Its arrays are
    split out of the unscoped buffers on entry and put back, at what the write-backs leave, on exit; the generator register
    rides through the body's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment of the run: entered with every unscoped buffer at `W2`, left with them at `W3`. Its arrays are
    split out of the unscoped buffers on entry and put back, at what the write-backs leave, on exit; the generator register
    rides through the body's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's three segments. -/
abbrev segs : List (Pipeline.Seg (pcfgs (F := F)) adm (pdats m ρ) () defs₀ 𝒱₀ L lv) :=
  [ .region (reg0 m ρ), .region (reg1 m ρ), .region (reg2 m ρ) ]

set_option backward.isDefEq.respectTransparency.types false in
/-- From any memory with zero counters every weakly fair execution of @main terminates, nothing faulting, and every final
    state holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_segs adm (pdats m ρ) () 𝒱₀ L lv (reg0 m ρ) (reg1 m ρ) (reg2 m ρ) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Hand

end
-- ==== Proof.KI.Region0.lean ====
/-
  The degree pass of the graph-convolution kernel, at any float instance: the pass computes, row block by
  row block, d = (1 + row sums of the matrix)^(-1/2) over a grid of 8 row blocks × 2 column blocks, the output block
  zeroed at the first column block, the row sums of each column block added into it, and the reciprocal square root of
  one plus the total stored at the second. Here: the body's run in each of its two cases (the column coordinate 0 or
  1), what the output block's staging buffer holds after each point, the pipeline's proof data and the body
  obligation, all at a parameter: the buffer contents when the pass is entered.
-/
import proofs.«152646_j44229573214372_2_alg».proof.Proof.Gen.KernelIdeal.Launch
import proofs.«152646_j44229573214372_2_alg».proof.Proof.Gen.KernelIdeal.Skeleton
import proofs.«152646_j44229573214372_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree pass: row sums of the matrix accumulated over the two column blocks, then (1 + ·)^(-1/2)

The grid is 8 × 2: point t = 2·i + k sees block (i, k) of the matrix (1024 rows, 4096 columns) and block i of the
output column (1024 rows). At k = 0 the output block is zeroed and the block's row sums are added; at k = 1 the
second block's row sums are added and the reciprocal square root of one plus the total is stored. -/

/-- The offsets of every access of the body: zero on both axes. -/
theorem hz0 : (![0, 0] : Fin 2 → Nat) = fun _ => 0 := funext fun a => by fin_cases a <;> rfl

/-! ## The body's branch conditions -/

/-- The first branch condition of the body: the column coordinate of the grid point is 0. -/
abbrev cond0_0 (i : grid0.Coords) : Prop := (Scalar.cmpi .ne (Scalar.extui (Scalar.cmpi .eq (BitVec.ofNat 32 (i 1).val) 0#32)) 0#32) = 1#1
/-- The second branch condition: the column coordinate is 1. -/
abbrev cond0_1 (i : grid0.Coords) : Prop := (Scalar.cmpi .ne (Scalar.extui (Scalar.cmpi .eq (BitVec.ofNat 32 (i 1).val) 1#32)) 0#32) = 1#1

/-- The first holds at the even points, -/
theorem hcond0_0 : ∀ t : Fin cfg0.N, cond0_0 (grid0.coords t) ↔ t.val % 2 = 0 :=
  (by decide +kernel : ∀ t : Fin grid0.N, cond0_0 (grid0.coords t) ↔ t.val % 2 = 0)
/-- the second at the odd ones. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## What the body leaves in the output block -/

/-- At a first column block x: zero plus the row sums of x. -/
def outFirst0 (x : Vec F S1024x4096 .f32) : Vec F S1024x1 .f32 := k0_pay2 (k0_pay1 (F := F)) x

/-- At a second column block x, over the running contents acc: the reciprocal square root of one plus
    (acc plus the row sums of x). -/
def outSecond0 (x : Vec F S1024x4096 .f32) (acc : Vec F S1024x1 .f32) : Vec F S1024x1 .f32 := k0_pay3 (k0_pay2 acc x)

/-! ## The body's run, case by case -/

set_option maxHeartbeats 1000000 in
/-- The body at a point of column coordinate 0, on whole staging memrefs, the matrix block's at contents x0 and the
    output block's at anything, runs to the continuation holding the first as it was and the second at outFirst0 x0:
    both stores overwrite the whole block, and the load between them reads the zero block back. -/
theorem run0_first (c : Dev nD) (i : grid0.Coords) (arg2 : Memref sig .tc .vmem S1024x4096 .f32) (harg2 : arg2.IsWhole) (arg3 : Memref sig .tc .vmem S1024x1 .f32) (harg3 : arg3.IsWhole)
    (hc0 : cond0_0 i) (hc1 : ¬cond0_1 i) (x0 : Vec F S1024x4096 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outFirst0 x0)) -∗ K ⟨⟩))
      ⊢ wp frame (wpE (defs₀ (F := F)) Variants.none c none) E (cc0__degree_kernel i arg2 harg2 arg3 harg3) K := by
  simp only [cc0__degree_kernel_eq_skeleton]; unfold cc0__degree_kernel_skel
  unfold owns
  iintro ⟨⟨%f0, %hf0, H0⟩, ⟨%d1, %f1, -, H1⟩, Hk⟩
  obtain rfl := harg2.eq_unread hf0
  sl_exec (disch := first | exact hc0 | exact hc1)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_cons_self, View.mem_set_unit_zero hz0 inb_S1024x1_S1024x1_0_0 y⟩),
    View.canon_cons_unit_zero (S := S1024x1) hz0]
  sl_unfold_run_names
  rw [View.readCov_unit_zero (S := S1024x1) _ hz0]
  unfold outFirst0
  simp only [View.readAt_eq_ld, harg2.read_unread, View.ld_unit_zero (S := S1024x4096) hz0]

set_option maxHeartbeats 1000000 in
/-- The body at a point of column coordinate 1, the output block's memref at the running contents acc, runs to the
    continuation holding it at outSecond0 x0 acc: the sum is stored over the whole block, read back, and the
    reciprocal square root of one plus it stored over the whole block. -/
theorem run0_second (c : Dev nD) (i : grid0.Coords) (arg2 : Memref sig .tc .vmem S1024x4096 .f32) (harg2 : arg2.IsWhole) (arg3 : Memref sig .tc .vmem S1024x1 .f32) (harg3 : arg3.IsWhole)
    (hc0 : ¬cond0_0 i) (hc1 : cond0_1 i) (x0 : Vec F S1024x4096 .f32) (acc : Vec F S1024x1 .f32) (E : Set ℕ) (K : PUnit → sProp 𝕄) :
    iprop(owns (c : Thread nD τ) arg2 fullShare x0 ∗ owns (c : Thread nD τ) arg3 fullShare acc
        ∗ (iprop(owns (c : Thread nD τ) arg2 fullShare x0 ∗ owns (c : Thread nD τ) arg3 fullShare (outSecond0 x0 acc)) -∗ K ⟨⟩))
      ⊢ wp frame (wpE (defs₀ (F := F)) Variants.none c none) E (cc0__degree_kernel i arg2 harg2 arg3 harg3) K := by
  simp only [cc0__degree_kernel_eq_skeleton]; unfold cc0__degree_kernel_skel
  unfold owns
  iintro ⟨⟨%f0, %hf0, H0⟩, ⟨%f1, %hf1, H1⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_cons_self, View.mem_set_unit_zero hz0 inb_S1024x1_S1024x1_0_0 y⟩),
    View.canon_cons_unit_zero (S := S1024x1) hz0]
  sl_unfold_run_names
  rw [View.readCov_unit_zero (S := S1024x1) _ hz0]
  unfold outSecond0
  simp only [View.readAt_eq_ld, harg2.read_unread, harg3.read_unread, View.ld_unit_zero (S := S1024x4096) hz0, View.ld_unit_zero (S := S1024x1) hz0]

-- the buffer contents when the pass is entered: a parameter of everything below
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix window's current staging buffer holds its block at every point, for any proof data whose array is
    the entry contents and whose body leaves the block in place: the window is fetched at every point, uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the output block's buffer holds after each point -/

/-- The point before t (t itself at the first point). -/
abbrev prev0 (t : Fin cfg0.N) : Fin cfg0.N := ⟨t.val - 1, Nat.lt_of_le_of_lt (Nat.sub_le _ _) t.isLt⟩

/-- After an even point t = 2·i: zero plus the row sums of block (i, 0). After an odd point t = 2·i + 1: the
    reciprocal square root of one plus (what point 2·i left plus the row sums of block (i, 1)). -/
def outAt0 (c : Dev nD) (t : Fin cfg0.N) : Vec F S1024x1 .f32 :=
  if t.val % 2 = 0 then outFirst0 (iblk0 V c 0 t) else outSecond0 (iblk0 V c 0 t) (outFirst0 (iblk0 V c 0 (prev0 t)))

theorem outAt0_even (c : Dev nD) (t : Fin cfg0.N) (h : t.val % 2 = 0) : outAt0 V c t = outFirst0 (iblk0 V c 0 t) := by
  unfold outAt0; rw [if_pos h]

theorem outAt0_odd (c : Dev nD) (t : Fin cfg0.N) (h : ¬t.val % 2 = 0) :
    outAt0 V c t = outSecond0 (iblk0 V c 0 t) (outFirst0 (iblk0 V c 0 (prev0 t))) := by
  unfold outAt0; rw [if_neg h]

/-! ## The pipeline's proof data -/

/-- The proof data of the degree pass on core c: the arrays as the region finds them; after the body at point t the
    matrix window's buffer at its block and the output window's at outAt0; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt0 V c t
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = outAt0 V c t := by dsimp only [dat0]

/-- The matrix window's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At an odd point the output window's current staging buffer holds what the body left at the point before: the
    point is not the first, the buffer was not written back between (write-backs happen after odd points only), the
    window is live and uncut. -/
theorem before0_1_odd (c : Dev nD) (t : Fin cfg0.N) (h0 : ¬t.val % 2 = 0) (d) :
    (dat0 V c).before 1 t d = outFirst0 (iblk0 V c 0 (prev0 t)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  rw [after0_1, outAt0_even V c _ (by dsimp only; omega)]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: the matrix window's memref holds its block; the parity of the point says which case it
    is in, and at an odd point the output window's memref holds what the point before left; so the case's run
    applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 16 := lt_of_lt_of_eq t.isLt (show cfg0.N = 16 from N_0)
  by_cases h0 : t.val % 2 = 0
  · rw [outAt0_even V c t h0]
    iintro ⟨HΦ, Ho, ⟨%d0, H0⟩, ⟨%d1, H1⟩⟩
    iapply (run0_first c (grid0.coords t) _ _ _ _ ((hcond0_0 t).mpr h0) (fun h => by have := (hcond0_1 t).mp h; omega) (iblk0 V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [outAt0_odd V c t h0]
    simp only [before0_1_odd V c t h0]
    iintro ⟨HΦ, Ho, ⟨%d0, H0⟩, ⟨%d1, H1⟩⟩
    iapply (run0_second c (grid0.coords t) _ _ _ _ (fun h => h0 ((hcond0_0 t).mp h)) ((hcond0_1 t).mpr (by omega)) (iblk0 V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second pass of the kernel, the scaled support: at each of its four grid points the body reads a block of 2048 rows
  of X, the whole of W and the matching 2048 degree scales, and stores (X_blk · W) · d row by row into the output's block.
  Nothing is carried from point to point and the one store covers the whole block, so what the body leaves in the output's
  staging buffer is its one payload of the three blocks it read.  Stated at the contents `V` the region finds in the buffers.
-/
import proofs.«152646_j44229573214372_2_alg».proof.Proof.Gen.KernelIdeal.Launch
import proofs.«152646_j44229573214372_2_alg».proof.Proof.Gen.KernelIdeal.Skeleton
import proofs.«152646_j44229573214372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body stores through: the whole output block. -/
abbrev r1_out : Rect S2048x256 := Rect.unit (s := S2048x256) ![0, 0] S2048x256.size inb_S2048x256_S2048x256_0_0
abbrev r1_x : Rect S2048x512 := Rect.unit (s := S2048x512) ![0, 0] S2048x512.size inb_S2048x512_S2048x512_0_0
abbrev r1_w : Rect S512x256 := Rect.unit (s := S512x256) ![0, 0] S512x256.size inb_S512x256_S512x256_0_0
abbrev r1_d : Rect S2048x1 := Rect.unit (s := S2048x1) ![0, 0] S2048x1.size inb_S2048x1_S2048x1_0_0

/-- What the body leaves in the output's staging buffer: its one store, of the payload of the three loaded blocks. -/
def out1_3 (x0 : Vec F S2048x512 .f32) (x1 : Vec F S512x256 .f32) (x2 : Vec F S2048x1 .f32) : Vec F S2048x256 .bf16 :=
  View.canon [⟨r1_out, k1_pay1 (View.ld x0 r1_x) (View.ld x1 r1_w) (View.ld x2 r1_d)⟩]

/-- The store covers the block. -/
theorem cover1_3 (p0 : Vec F S2048x256 .bf16) (y : S2048x256.Idx) :
    ∃ pc ∈ ([⟨r1_out, p0⟩] : List (View.Piece (Elt F) S2048x256 .bf16)), y ∈ pc.1.set :=
  View.cover_of_tiled [⟨r1_out, p0⟩] S2048x256.size (by rfl) y

set_option maxHeartbeats 1000000 in
/-- The body on whole staging memrefs: the inputs' contents stay, the output's buffer ends at `out1_3` of them. -/
theorem sound_kernel1 (c : Dev nD) (E : Set ℕ) (i : grid1.Coords)
    (arg1 : Memref sig .tc .vmem S2048x512 .f32) (harg1 : arg1.IsWhole) (arg2 : Memref sig .tc .vmem S512x256 .f32) (harg2 : arg2.IsWhole)
    (arg3 : Memref sig .tc .vmem S2048x1 .f32) (harg3 : arg3.IsWhole) (arg4 : Memref sig .tc .vmem S2048x256 .bf16) (harg4 : arg4.IsWhole)
    (x0 : Vec F S2048x512 .f32) (x1 : Vec F S512x256 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__support_kernel i arg1 harg1 arg2 harg2 arg3 harg3 arg4 harg4) K := by
  simp only [cc1__support_kernel_eq_skeleton]; unfold cc1__support_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pass on core `c`: the arrays as the region finds them; after the body each input's buffer at its
    block, the output's at the payload of the point's three blocks; the rest untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2Base.lean ====
/-
  The aggregation pass (third region): out = (A · S) · d, accumulated over four column panels of A.
  What the runs of its body share: each window's block at a point, the three branch conditions of the body in
  closed form over the point's position in its row of the grid (k = t mod 4), that the output window is idle at
  no point, and that every input's current staging buffer holds its block.
-/
import proofs.«152646_j44229573214372_2_alg».proof.Proof.Gen.KernelIdeal.Launch
import proofs.«152646_j44229573214372_2_alg».proof.Proof.Gen.KernelIdeal.Skeleton
import proofs.«152646_j44229573214372_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of A (window 0) is in its current staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole scaled support (window 1, fetched once) is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The block of the degree scales (window 2, fetched at the first point of each row of the grid) is in its
    current staging buffer at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions, over k = t mod 4 -/

/-- The first branch (store the partial product) is taken exactly at k = 0. -/
theorem hcond2_1 : ∀ t : Fin cfg2.N, k2_cond1 (grid2.coords t) = 1#1 ↔ t.val % 4 = 0 :=
  (by decide +kernel : ∀ t : Fin grid2.N, k2_cond1 (grid2.coords t) = 1#1 ↔ t.val % 4 = 0)
/-- The second branch (add the partial product) is taken exactly at k ≠ 0. -/
theorem hcond2_2 : ∀ t : Fin cfg2.N, k2_cond2 (grid2.coords t) = 1#1 ↔ ¬t.val % 4 = 0 :=
  (by decide +kernel : ∀ t : Fin grid2.N, k2_cond2 (grid2.coords t) = 1#1 ↔ ¬t.val % 4 = 0)
/-- The third branch (scale the rows) is taken exactly at k = 3. -/
theorem hcond2_3 : ∀ t : Fin cfg2.N, k2_cond3 (grid2.coords t) = 1#1 ↔ t.val % 4 = 3 :=
  (by decide +kernel : ∀ t : Fin grid2.N, k2_cond3 (grid2.coords t) = 1#1 ↔ t.val % 4 = 3)

/-- At every point one of the branches is taken: the output window is idle nowhere. -/
theorem idle2_3 : ∀ i : grid2.Coords, cfg2.idle (3 : Fin cfg2.W) i = false := by decide +kernel
theorem idle2_3_at (t : Fin cfg2.N) : cfg2.idle (3 : Fin cfg2.W) (cfg2.grid.coords t) = false := idle2_3 _

/-! ## The staging memrefs at a point -/

/-- One staging buffer of the output window, through which its contents are stated. -/
abbrev VO2_3 : View sig .tc .vmem S1024x256 .f32 := (Memref.whole cc2_stg3_0 : Memref sig .tc .vmem S1024x256 .f32).view
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x256 .f32 := win2_3.stage (cfg2.slots t 3)
abbrev hs2_3 (t : Fin cfg2.N) : (ms2_3 t).IsWhole := hstage2_3 ((cfg2.slots t 3).cast nbuf2_3)

end Cert.KernelIdeal.Hand

end
-- ==== Proof.KI.Region2RunA.lean ====
/-
  The aggregation pass's body at the first point of a row of the grid (k = 0): the partial product of the first
  panel is stored over whatever the output's staging buffer held.
-/
import proofs.«152646_j44229573214372_2_alg».proof.Proof.KI.Region2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The pieces the body's stores leave in the output's staging memref (last first) in this case, WITH the proof
    that on whole staging memrefs — the three inputs' at their contents, the output's at anything —
    the body runs to the continuation holding the inputs' as they were and the output's with those pieces written. -/
noncomputable def kernelRun2_A (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole)
    (hc1 : k2_cond1 i = 1#1) (hc2 : ¬k2_cond2 i = 1#1) (hc3 : ¬k2_cond3 i = 1#1)
    (x0 : Vec F S1024x2048 .f32) (x1 : Vec F S8192x256 .bf16) (x2 : Vec F S1024x1 .f32) :
    { L3 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__agg_kernel i arg2 harg2 arg3 harg3 arg4 harg4 arg5 harg5) K } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.Region2RunB.lean ====
/-
  The aggregation pass's body at a middle point of a row of the grid (k = 1, 2): the partial product of the
  panel is added to what the output's staging buffer holds.
-/
import proofs.«152646_j44229573214372_2_alg».proof.Proof.KI.Region2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The pieces the body's stores leave in the output's staging memref (last first) in this case, WITH the proof
    that on whole staging memrefs — the three inputs' at their contents, the output's at its running contents —
    the body runs to the continuation holding the inputs' as they were and the output's with those pieces written. -/
noncomputable def kernelRun2_B (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole)
    (hc1 : ¬k2_cond1 i = 1#1) (hc2 : k2_cond2 i = 1#1) (hc3 : ¬k2_cond3 i = 1#1)
    (x0 : Vec F S1024x2048 .f32) (x1 : Vec F S8192x256 .bf16) (x2 : Vec F S1024x1 .f32) (xo : Vec F S1024x256 .f32) :
    { L3 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__agg_kernel i arg2 harg2 arg3 harg3 arg4 harg4 arg5 harg5) K } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.Region2RunC.lean ====
/-
  The aggregation pass's body at the last point of a row of the grid (k = 3): the partial product of the last
  panel is added to what the output's staging buffer holds, and each row is then scaled by its degree scale.
-/
import proofs.«152646_j44229573214372_2_alg».proof.Proof.KI.Region2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The pieces the body's stores leave in the output's staging memref (last first) in this case, WITH the proof
    that on whole staging memrefs — the three inputs' at their contents, the output's at its running contents —
    the body runs to the continuation holding the inputs' as they were and the output's with those pieces written. -/
noncomputable def kernelRun2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole)
    (hc1 : ¬k2_cond1 i = 1#1) (hc2 : k2_cond2 i = 1#1) (hc3 : k2_cond3 i = 1#1)
    (x0 : Vec F S1024x2048 .f32) (x1 : Vec F S8192x256 .bf16) (x2 : Vec F S1024x1 .f32) (xo : Vec F S1024x256 .f32) :
    { L3 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__agg_kernel i arg2 harg2 arg3 harg3 arg4 harg4 arg5 harg5) K } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.Region2.lean ====
/-
  The aggregation pass (third region), out = (A · S) · d: its frame half, at the contents `V` the region finds in
  the buffers.  The output block of a row of the grid is accumulated over the row's four points: what the output's
  staging buffer holds after each point is defined by recursion on the point (the first point of a row stores, the
  later ones add to what the point before left, the last one also scales the rows); the inputs' buffers hold their
  blocks throughout.  From these the proof data of the pipeline and the body's obligation at every point.
-/
import proofs.«152646_j44229573214372_2_alg».proof.Proof.KI.Region2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first point of a row of the grid (k = 0) the pieces the body stores tile the output block, so they cover it. -/
theorem cover2_A_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : k2_cond1 i = 1#1) (hc2 : ¬k2_cond2 i = 1#1) (hc3 : ¬k2_cond3 i = 1#1)
    (x0 : Vec F S1024x2048 .f32) (x1 : Vec F S8192x256 .bf16) (x2 : Vec F S1024x1 .f32) (y : S1024x256.Idx) :
    ∃ pc ∈ (kernelRun2_A c i arg2 harg2 arg3 harg3 arg4 harg4 arg5 harg5 hc1 hc2 hc3 x0 x1 x2).1, y ∈ pc.1.set :=
  View.cover_of_tiledL (kernelRun2_A c i arg2 harg2 arg3 harg3 arg4 harg4 arg5 harg5 hc1 hc2 hc3 x0 x1 x2).1 S1024x256.size (by sl_kernel_rfl) y

/-- What the body leaves in the output's staging buffer at the first point of a row of the grid (k = 0): its pieces read back. -/
def out2_A_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : k2_cond1 i = 1#1) (hc2 : ¬k2_cond2 i = 1#1) (hc3 : ¬k2_cond3 i = 1#1)
    (x0 : Vec F S1024x2048 .f32) (x1 : Vec F S8192x256 .bf16) (x2 : Vec F S1024x1 .f32) : Vec F S1024x256 .f32 :=
  VO2_3.read (Elt F) (VO2_3.writes (Elt F) VO2_3.junk (kernelRun2_A c i arg2 harg2 arg3 harg3 arg4 harg4 arg5 harg5 hc1 hc2 hc3 x0 x1 x2).1)

/-- At a middle point of a row of the grid (k = 1, 2) the pieces the body stores tile the output block, so they cover it. -/
theorem cover2_B_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : ¬k2_cond1 i = 1#1) (hc2 : k2_cond2 i = 1#1) (hc3 : ¬k2_cond3 i = 1#1)
    (x0 : Vec F S1024x2048 .f32) (x1 : Vec F S8192x256 .bf16) (x2 : Vec F S1024x1 .f32) (xo : Vec F S1024x256 .f32) (y : S1024x256.Idx) :
    ∃ pc ∈ (kernelRun2_B c i arg2 harg2 arg3 harg3 arg4 harg4 arg5 harg5 hc1 hc2 hc3 x0 x1 x2 xo).1, y ∈ pc.1.set :=
  View.cover_of_tiledL (kernelRun2_B c i arg2 harg2 arg3 harg3 arg4 harg4 arg5 harg5 hc1 hc2 hc3 x0 x1 x2 xo).1 S1024x256.size (by sl_kernel_rfl) y

/-- What the body leaves in the output's staging buffer at a middle point of a row of the grid (k = 1, 2): its pieces read back. -/
def out2_B_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : ¬k2_cond1 i = 1#1) (hc2 : k2_cond2 i = 1#1) (hc3 : ¬k2_cond3 i = 1#1)
    (x0 : Vec F S1024x2048 .f32) (x1 : Vec F S8192x256 .bf16) (x2 : Vec F S1024x1 .f32) (xo : Vec F S1024x256 .f32) : Vec F S1024x256 .f32 :=
  VO2_3.read (Elt F) (VO2_3.writes (Elt F) VO2_3.junk (kernelRun2_B c i arg2 harg2 arg3 harg3 arg4 harg4 arg5 harg5 hc1 hc2 hc3 x0 x1 x2 xo).1)

/-- At the last point of a row of the grid (k = 3) the pieces the body stores tile the output block, so they cover it. -/
theorem cover2_C_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : ¬k2_cond1 i = 1#1) (hc2 : k2_cond2 i = 1#1) (hc3 : k2_cond3 i = 1#1)
    (x0 : Vec F S1024x2048 .f32) (x1 : Vec F S8192x256 .bf16) (x2 : Vec F S1024x1 .f32) (xo : Vec F S1024x256 .f32) (y : S1024x256.Idx) :
    ∃ pc ∈ (kernelRun2_C c i arg2 harg2 arg3 harg3 arg4 harg4 arg5 harg5 hc1 hc2 hc3 x0 x1 x2 xo).1, y ∈ pc.1.set :=
  View.cover_of_tiledL (kernelRun2_C c i arg2 harg2 arg3 harg3 arg4 harg4 arg5 harg5 hc1 hc2 hc3 x0 x1 x2 xo).1 S1024x256.size (by sl_kernel_rfl) y

/-- What the body leaves in the output's staging buffer at the last point of a row of the grid (k = 3): its pieces read back. -/
def out2_C_3 (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : ¬k2_cond1 i = 1#1) (hc2 : k2_cond2 i = 1#1) (hc3 : k2_cond3 i = 1#1)
    (x0 : Vec F S1024x2048 .f32) (x1 : Vec F S8192x256 .bf16) (x2 : Vec F S1024x1 .f32) (xo : Vec F S1024x256 .f32) : Vec F S1024x256 .f32 :=
  VO2_3.read (Elt F) (VO2_3.writes (Elt F) VO2_3.junk (kernelRun2_C c i arg2 harg2 arg3 harg3 arg4 harg4 arg5 harg5 hc1 hc2 hc3 x0 x1 x2 xo).1)

/-! ## The case a point is in, from k = t mod 4 -/

theorem hA2_1 (t : Fin cfg2.N) (h0 : t.val % 4 = 0) : k2_cond1 (grid2.coords t) = 1#1 := (hcond2_1 t).mpr h0
theorem hA2_2 (t : Fin cfg2.N) (h0 : t.val % 4 = 0) : ¬k2_cond2 (grid2.coords t) = 1#1 := fun h => (hcond2_2 t).mp h h0
theorem hA2_3 (t : Fin cfg2.N) (h0 : t.val % 4 = 0) : ¬k2_cond3 (grid2.coords t) = 1#1 := fun h => by
  have := (hcond2_3 t).mp h; omega
theorem hB2_1 (t : Fin cfg2.N) (h0 : ¬t.val % 4 = 0) : ¬k2_cond1 (grid2.coords t) = 1#1 := fun h => h0 ((hcond2_1 t).mp h)
theorem hB2_2 (t : Fin cfg2.N) (h0 : ¬t.val % 4 = 0) : k2_cond2 (grid2.coords t) = 1#1 := (hcond2_2 t).mpr h0
theorem hB2_3 (t : Fin cfg2.N) (h3 : ¬t.val % 4 = 3) : ¬k2_cond3 (grid2.coords t) = 1#1 := fun h => h3 ((hcond2_3 t).mp h)
theorem hC2_3 (t : Fin cfg2.N) (h3 : t.val % 4 = 3) : k2_cond3 (grid2.coords t) = 1#1 := (hcond2_3 t).mpr h3

/-! ## What the output's staging buffer holds after each point -/

/-- THE ACCUMULATION over a row of the grid: after the point at position `n`, the case k = n mod 4 selects, run at the
    point's memrefs and input blocks, and for k ≠ 0 over what the point before left. -/
def outsAt2 (c : Dev nD) : (n : ℕ) → n < cfg2.N → Vec F S1024x256 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (hA2_1 ⟨0, hn⟩ (Nat.zero_mod _)) (hA2_2 ⟨0, hn⟩ (Nat.zero_mod _)) (hA2_3 ⟨0, hn⟩ (Nat.zero_mod _)) (iblk2 V c 0 ⟨0, hn⟩) (iblk2 V c 1 ⟨0, hn⟩) (iblk2 V c 2 ⟨0, hn⟩)
  | n + 1, hn =>
    if h0 : (n + 1) % 4 = 0 then
      out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (hA2_1 ⟨n + 1, hn⟩ h0) (hA2_2 ⟨n + 1, hn⟩ h0) (hA2_3 ⟨n + 1, hn⟩ h0) (iblk2 V c 0 ⟨n + 1, hn⟩) (iblk2 V c 1 ⟨n + 1, hn⟩) (iblk2 V c 2 ⟨n + 1, hn⟩)
    else if h3 : (n + 1) % 4 = 3 then
      out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (hB2_1 ⟨n + 1, hn⟩ h0) (hB2_2 ⟨n + 1, hn⟩ h0) (hC2_3 ⟨n + 1, hn⟩ h3) (iblk2 V c 0 ⟨n + 1, hn⟩) (iblk2 V c 1 ⟨n + 1, hn⟩) (iblk2 V c 2 ⟨n + 1, hn⟩) (outsAt2 c n (Nat.lt_of_succ_lt hn))
    else
      out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (hB2_1 ⟨n + 1, hn⟩ h0) (hB2_2 ⟨n + 1, hn⟩ h0) (hB2_3 ⟨n + 1, hn⟩ h3) (iblk2 V c 0 ⟨n + 1, hn⟩) (iblk2 V c 1 ⟨n + 1, hn⟩) (iblk2 V c 2 ⟨n + 1, hn⟩) (outsAt2 c n (Nat.lt_of_succ_lt hn))

theorem outsAt2_A (c : Dev nD) (t : Fin cfg2.N) (h0 : t.val % 4 = 0) :
    outsAt2 V c t.val t.isLt = out2_A_3 c (grid2.coords t) (ms2_0 t) (hs2_0 t) (ms2_1 t) (hs2_1 t) (ms2_2 t) (hs2_2 t) (ms2_3 t) (hs2_3 t) (hA2_1 t h0) (hA2_2 t h0) (hA2_3 t h0) (iblk2 V c 0 t) (iblk2 V c 1 t) (iblk2 V c 2 t) := by
  obtain ⟨n, hn⟩ := t
  cases n with
  | zero => exact rfl
  | succ n => exact (dif_pos h0).trans rfl

theorem outsAt2_B (c : Dev nD) (t : Fin cfg2.N) (h0 : ¬t.val % 4 = 0) (h3 : ¬t.val % 4 = 3) :
    outsAt2 V c t.val t.isLt = out2_B_3 c (grid2.coords t) (ms2_0 t) (hs2_0 t) (ms2_1 t) (hs2_1 t) (ms2_2 t) (hs2_2 t) (ms2_3 t) (hs2_3 t) (hB2_1 t h0) (hB2_2 t h0) (hB2_3 t h3) (iblk2 V c 0 t) (iblk2 V c 1 t) (iblk2 V c 2 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_neg h3)).trans rfl

theorem outsAt2_C (c : Dev nD) (t : Fin cfg2.N) (h0 : ¬t.val % 4 = 0) (h3 : t.val % 4 = 3) :
    outsAt2 V c t.val t.isLt = out2_C_3 c (grid2.coords t) (ms2_0 t) (hs2_0 t) (ms2_1 t) (hs2_1 t) (ms2_2 t) (hs2_2 t) (ms2_3 t) (hs2_3 t) (hB2_1 t h0) (hB2_2 t h0) (hC2_3 t h3) (iblk2 V c 0 t) (iblk2 V c 1 t) (iblk2 V c 2 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_pos h3)).trans rfl

/-! ## The pipeline's proof data -/

/-- The proof data of the aggregation pipeline on core `c`: the arrays as the region finds them; after the body at a
    point each input's buffer at its block and the output's at the accumulation; the invariant the scoped rest and
    the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- At a point that is not the first of its row the output's current staging buffer holds what the body left at the
    point before: the block index has not moved, the buffer was not written back between, the window is idle nowhere. -/
theorem before2_3_acc (c : Dev nD) (t : Fin cfg2.N) (h0 : ¬t.val % 4 = 0) (d) :
    (dat2 V c).before 3 t d = outsAt2 V c (t.val - 1) (Nat.lt_of_le_of_lt (Nat.sub_le _ _) t.isLt) := by
  have hN : t.val < 32 := lt_of_lt_of_eq t.isLt (show cfg2.N = 32 from N_2)
  rw [Dat.before_out_kept _ 3 rfl t (by omega) (Bool.eq_false_iff.mpr fun h => by have := (flush2_3 _).mp h; dsimp only at this; omega)
    idle2_3 (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 1600000 in
/-- The body at any point: the inputs' memrefs hold their blocks; k = t mod 4 says which case the point is in, and for
    k ≠ 0 the output's memref holds what the point before left; so that case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  by_cases h0 : t.val % 4 = 0
  ·
    rw [outsAt2_A V c t h0]
    unfold out2_A_3
    iintro ⟨HΦ, Ho, ⟨%d0, H0⟩, ⟨%d1, H1⟩, ⟨%d2, H2⟩, ⟨%d3, H3⟩⟩
    iapply ((kernelRun2_A c (grid2.coords t) _ _ _ _ _ _ _ _ (hA2_1 t h0) (hA2_2 t h0) (hA2_3 t h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_A_3 c _ _ _ _ _ _ _ _ _ _ _ _ _ _ _)
  · simp only [before2_3_acc V c t h0]
    by_cases h3 : t.val % 4 = 3
    ·
      rw [outsAt2_C V c t h0 h3]
      unfold out2_C_3
      iintro ⟨HΦ, Ho, ⟨%d0, H0⟩, ⟨%d1, H1⟩, ⟨%d2, H2⟩, ⟨%d3, H3⟩⟩
      iapply ((kernelRun2_C c (grid2.coords t) _ _ _ _ _ _ _ _ (hB2_1 t h0) (hB2_2 t h0) (hC2_3 t h3) (iblk2 V c 0 t) (iblk2 V c 1 t) (iblk2 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _)
    ·
      rw [outsAt2_B V c t h0 h3]
      unfold out2_B_3
      iintro ⟨HΦ, Ho, ⟨%d0, H0⟩, ⟨%d1, H1⟩, ⟨%d2, H2⟩, ⟨%d3, H3⟩⟩
      iapply ((kernelRun2_B c (grid2.coords t) _ _ _ _ _ _ _ _ (hB2_1 t h0) (hB2_2 t h0) (hB2_3 t h3) (iblk2 V c 0 t) (iblk2 V c 1 t) (iblk2 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_B_3 c _ _ _ _ _ _ _ _ _ _ _ _ _ _ _ _)

/-- The output window is idle at no point, in the form the obligation's case split meets it. -/
theorem idle2_3_pt (t : Fin cfg2.N) : idle2 3 (grid2.coords t) = false := idle2_3 _

/-- The library's body obligation, at every point. -/
theorem body_obligation2 (c : Dev nD) : BodyObligation (dat2 (F := F) V c) (defs₀ (F := F)) Variants.none () Set.univ := fun t => by
  rw [bigSep_W2, bigSep_W2]
  simp only [idle2_3_pt]
  rw [idle2_3_pt t]
  exact sound_body2 V c t

end Cert.KernelIdeal.Hand

end
-- ==== Proof.KI.Run.lean ====
/-
  The kernel program's run, assembled: its @main is three passes one after the other — the degree scales, the scaled
  support, the aggregation — with no host operation between them.  Between two passes core `c` holds every unscoped buffer
  at a known valuation: the launch memory, then after each pass that pass's arrays at what its write-backs leave
  (the fold of the flushed blocks over the array as the pass found it) and every other buffer unchanged.  The three
  passes are the three segments of the run; the final memory is read back off the last valuation.
-/
import proofs.«152646_j44229573214372_2_alg».proof.Proof.KI.Region0
import proofs.«152646_j44229573214372_2_alg».proof.Proof.KI.Region1
import proofs.«152646_j44229573214372_2_alg».proof.Proof.KI.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the passes -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After pass 0: its arrays at what its write-backs leave, every other buffer as the pass found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After pass 1: its arrays at what its write-backs leave, every other buffer as the pass found it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After pass 2: its arrays at what its write-backs leave, every other buffer as the pass found it. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the core's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The arguments end as launched: a pass reads an argument through an input window, or not at all -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat2 (V2 m ρ) c).arrAt_in 0 rfl _).trans (A_eq2 (V2 m ρ) c 0))
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W3_main_arg1 (c : Dev nD) : W3 m ρ c (Proc.devRef .tc main_arg1) = m ((c : Thread nD τ).loc main_arg1) :=
  (W3_of_ne m ρ c main_arg1 (by decide)).trans (W2_main_arg1 m ρ c)

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl

theorem W3_main_arg2 (c : Dev nD) : W3 m ρ c (Proc.devRef .tc main_arg2) = m ((c : Thread nD τ).loc main_arg2) :=
  (W3_of_ne m ρ c main_arg2 (by decide)).trans (W2_main_arg2 m ρ c)

/-! ## The proof data family and the thread state -/

/-- No pass has a prefetched table. -/
abbrev adm : (p : Fin 3) → (pcfgs (F := F) p).Adm := fun p => (cfgs p).toPCfg_adm
/-- Every pass's proof data, each at the contents its pass finds. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at some state. -/
abbrev Tₙ (c : Dev nD) : sProp 𝕄 := iprop(StableHlo.held (c : Thread nD τ) (Pipeline.ucRefs τ sig) (W3 m ρ c) ∗ ∃ r, prngReg c r)

/-! ## The passes as segments -/

set_option backward.isDefEq.respectTransparency.types false in
/-- Pass 0 as a segment of the run: entered with every unscoped buffer at `W0`, left with them at `W1`. Its arrays are
    split out of the unscoped buffers on entry and put back, at what the write-backs leave, on exit; the generator register
    rides through the body's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment of the run: entered with every unscoped buffer at `W1`, left with them at `W2`. Its arrays are
    split out of the unscoped buffers on entry and put back, at what the write-backs leave, on exit; the generator register
    rides through the body's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment of the run: entered with every unscoped buffer at `W2`, left with them at `W3`. Its arrays are
    split out of the unscoped buffers on entry and put back, at what the write-backs leave, on exit; the generator register
    rides through the body's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's three segments. -/
abbrev segs : List (Pipeline.Seg (pcfgs (F := F)) adm (pdats m ρ) () defs₀ 𝒱₀ L lv) :=
  [ .region (reg0 m ρ), .region (reg1 m ρ), .region (reg2 m ρ) ]

set_option backward.isDefEq.respectTransparency.types false in
/-- From any memory with zero counters every weakly fair execution of @main terminates, nothing faulting, and every final
    state holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_segs adm (pdats m ρ) () 𝒱₀ L lv (reg0 m ρ) (reg1 m ρ) (reg2 m ρ) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.Spec.lean ====
/-
  The mathematics of the graph-convolution layer  out = D · A · D · (X · W),  D = diag (1 + row sums of A)^(-1/2),
  as functions on the extended reals, index by index, over the literal shapes.  No program is imported here.

  * `deg A i`      the degree scale of row `i`:  (1 + Σ_j A i j)^(-1/2)
  * `sup X W r c`  the support  (X · W) r c = Σ_k X r k · W k c
  * `degArr`, `ssArr`, `aggArr`  the three arrays the kernel's three passes leave: the column of degree scales,
    the support scaled row by row, and the aggregation  (Σ_j A i j · s j c) · d i
  * `kernelOut`    their composition, what the kernel computes
  * `refOut`       what the reference computes:  Σ_j ((d i · A i j) · d j) · (X · W) j c
-/
import Idealize.ShloMosaic.PureOps.Ideal
import Idealize.ShloMosaic.Lib.ValueIdx

noncomputable section

namespace Cert.Spec

open Idealize.ShloMosaic Idealize.ShloMosaic.ValueIdx

abbrev SA : Shape := ⟨2, ![8192, 8192]⟩
abbrev SX : Shape := ⟨2, ![8192, 512]⟩
abbrev SW : Shape := ⟨2, ![512, 256]⟩
abbrev SD : Shape := ⟨2, ![8192, 1]⟩
abbrev SO : Shape := ⟨2, ![8192, 256]⟩

/-- The float literal 1.0 as both programs print it. -/
abbrev one : EReal := Ideal.ofBits .f32 0x3F800000#32

/-- Row `i`'s degree scale: (1 + Σ_j A i j)^(-1/2). -/
def deg (A : SA.Idx → EReal) (i : Fin 8192) : EReal :=
  Ideal.rsqrt (one + ∑ j : Fin 8192, A (ix2 i j))

/-- The support (X · W) at row `r`, column `c`. -/
def sup (X : SX.Idx → EReal) (W : SW.Idx → EReal) (r : Fin 8192) (c : Fin 256) : EReal :=
  ∑ k : Fin 512, X (ix2 r k) * W (ix2 k c)

/-- The column [8192, 1] of degree scales. -/
def degArr (A : SA.Idx → EReal) : SD.Idx → EReal :=
  fun y => deg A ⟨(y 0).val, idx2_lt0 y⟩

/-- The support scaled row by row: (X · W) r c · d r. -/
def ssArr (X : SX.Idx → EReal) (W : SW.Idx → EReal) (d : SD.Idx → EReal) : SO.Idx → EReal :=
  fun y => sup X W ⟨(y 0).val, idx2_lt0 y⟩ ⟨(y 1).val, idx2_lt1 y⟩ * d (ix2 ⟨(y 0).val, idx2_lt0 y⟩ (0 : Fin 1))

/-- The aggregation: (Σ_j A i j · s j c) · d i. -/
def aggArr (A : SA.Idx → EReal) (s : SO.Idx → EReal) (d : SD.Idx → EReal) : SO.Idx → EReal :=
  fun y => (∑ j : Fin 8192, A (ix2 ⟨(y 0).val, idx2_lt0 y⟩ j) * s (ix2 j ⟨(y 1).val, idx2_lt1 y⟩))
    * d (ix2 ⟨(y 0).val, idx2_lt0 y⟩ (0 : Fin 1))

/-- What the kernel's three passes compute. -/
def kernelOut (A : SA.Idx → EReal) (X : SX.Idx → EReal) (W : SW.Idx → EReal) : SO.Idx → EReal :=
  aggArr A (ssArr X W (degArr A)) (degArr A)

/-- What the reference computes: Σ_j ((d i · A i j) · d j) · (X · W) j c. -/
def refOut (A : SA.Idx → EReal) (X : SX.Idx → EReal) (W : SW.Idx → EReal) : SO.Idx → EReal :=
  fun y => ∑ j : Fin 8192,
    ((deg A ⟨(y 0).val, idx2_lt0 y⟩ * A (ix2 ⟨(y 0).val, idx2_lt0 y⟩ j)) * deg A j) * sup X W j ⟨(y 1).val, idx2_lt1 y⟩

end Cert.Spec

end
-- ==== Proof.LibKeepdims.lean ====
import Idealize.ShloMosaic.Lib.Pipeline.Value
import Idealize.ShloMosaic.Lib.ValueIdx

/-!
# A column vector's two layout steps read at an index

A row-wise sum that keeps its axis (`sum (…, axis = -1, keepdims = True)`) reaches a kernel as a vector `[a]`
re-laid as a column `[a, 1]` and later broadcast along the rows to `[a, b]`. Both steps read one entry of the
operand: entry `(i, 0)` of the column is entry `i` of the vector, and entry `(i, c)` of the broadcast is entry
`(i, 0)` of the column. (The companions for a leading unit axis, `[a] → [1, a]` and `[1, b] → [a, b]`, are in the
library's layout file; these are the trailing-unit-axis forms, in the same style.)
-/

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.Region0Value.lean ====
/-
  The degree pass of the graph-convolution kernel, over the extended reals: after its last point the
  pass's output array holds the column of degree scales d i = (1 + Σ_j A i j)^(-1/2) of the matrix A it found.
  Point t = 2·i + k of the 8 × 2 grid sees block (i, k) of A; the pair of points 2·i, 2·i + 1 leaves, at row r of
  output block i, the reciprocal square root of one plus ((0 + Σ_{q<4096} A(1024 i + r, q)) + Σ_{q<4096} A(1024 i + r,
  4096 + q)), and the two half-row sums are the row's sum (the extended reals are an additive commutative monoid: no
  finiteness is asked). The odd points write their blocks back, and the eight blocks cover the column.
-/
import proofs.«152646_j44229573214372_2_alg».proof.Proof.KI.Region0
import proofs.«152646_j44229573214372_2_alg».proof.Proof.Spec
import proofs.«152646_j44229573214372_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-! ## The payloads at an element, over the extended reals -/

/-- The row sums: the reduction over the column axis of a [1024, 4096] block, at row r, is the sum of the row. -/
theorem rowsum0 (x : FVec Ideal S1024x4096 .f32) (hφ : FKind.Formats .f32)
    (hacc : (0x00000000#32 : BitVec 32) = 0x00000000#32) (r : Fin 1024) :
    multiReduction (F := Ideal) .add [1] S1024 x 0x00000000#32 reduces_S1024x4096_S1024 hφ hacc (ix1 r)
      = ∑ q : Fin 4096, x (ix2 r q) := by
  refine (Ideal.multiReduction_add_single x 0x00000000#32 reduces_S1024x4096_S1024 hφ hacc (ix1 r)).trans ?_
  refine Finset.sum_congr rfl fun q _ => congrArg x ?_
  funext a
  match a with
  | ⟨0, _⟩ => rfl
  | ⟨1, _⟩ => rfl

/-- The zero block reads 0 everywhere. -/
theorem pay1_apply0 (j : S1024x1.Idx) : k0_pay1 (F := Ideal) j = 0 := by
  show Ideal.ofBits .f32 0x00000000#32 = 0
  exact Ideal.ofBits_zero_f32

/-- The accumulation at row r: the running value plus the row sum of the block. -/
theorem pay2_apply0 (acc : Vec Ideal S1024x1 .f32) (x : Vec Ideal S1024x4096 .f32) (r : Fin 1024) (u : Fin 1) :
    k0_pay2 (F := Ideal) acc x (ix2 r u) = acc (ix2 r u) + ∑ q : Fin 4096, x (ix2 r q) := by
  unfold k0_pay2
  rw [addf_apply, shapeCast_self, shapeCast_a_a1_apply, rowsum0]

/-- The finish at row r: the reciprocal square root of one plus the running value. -/
theorem pay3_apply0 (v : Vec Ideal S1024x1 .f32) (j : S1024x1.Idx) :
    k0_pay3 (F := Ideal) v j = Ideal.rsqrt (Cert.Spec.one + v j) := by
  unfold k0_pay3
  show Ideal.rsqrt (Ideal.ofBits .f32 0x3F800000#32 + shapeCast S1024x1 v shapeCasts_S1024x1_S1024x1 j) = _
  rw [shapeCast_self]

/-- So the block after a first-then-second pair of points, at row r: the reciprocal square root of one plus the two
    half-row sums. -/
theorem outSecond0_apply (x0 x1 : Vec Ideal S1024x4096 .f32) (r : Fin 1024) (u : Fin 1) :
    outSecond0 (F := Ideal) x1 (outFirst0 x0) (ix2 r u)
      = Ideal.rsqrt (Cert.Spec.one + ((∑ q : Fin 4096, x0 (ix2 r q)) + ∑ q : Fin 4096, x1 (ix2 r q))) := by
  unfold outSecond0 outFirst0
  rw [pay3_apply0, pay2_apply0, pay2_apply0, pay1_apply0, zero_add]

/-! ## From the blocks to the array -/

section Array

variable (V : (c : Dev nD) → (b : Ref sig .tc) → Buf (Elt Ideal) ((c : Thread nD τ).loc b))

/-- A sum over the 8192 columns is the sum over the first 4096 plus the sum over the last 4096. -/
theorem sum_halves0 (f : Fin 8192 → EReal) :
    ∑ j : Fin 8192, f j = (∑ q : Fin 4096, f ⟨q.val, by omega⟩) + ∑ q : Fin 4096, f ⟨4096 + q.val, by omega⟩ :=
  Fin.sum_univ_add (a := 4096) (b := 4096) f

/-- The block indices of both windows at point t = 2·i + k: the matrix block is (i, k), the output block (i, 0). -/
theorem idx_facts0 : ∀ t : Fin cfg0.N, win0_0.index t (0 : Fin 2) = t.val / 2 ∧ win0_0.index t (1 : Fin 2) = t.val % 2
    ∧ win0_1.index t (0 : Fin 2) = t.val / 2 ∧ win0_1.index t (1 : Fin 2) = 0 :=
  (by decide +kernel : ∀ t : Fin grid0.N, win0_0.index t (0 : Fin 2) = t.val / 2 ∧ win0_0.index t (1 : Fin 2) = t.val % 2
    ∧ win0_1.index t (0 : Fin 2) = t.val / 2 ∧ win0_1.index t (1 : Fin 2) = 0)

/-- The matrix window's block at point t, at (r, q): the matrix at row 1024·(t / 2) + r, column 4096·(t % 2) + q. -/
theorem iblk0_apply (c : Dev nD) (t : Fin cfg0.N) (r : Fin 1024) (q : Fin 4096) (i k : Fin 8192)
    (hi : i.val = t.val / 2 * 1024 + r.val) (hk : k.val = t.val % 2 * 4096 + q.val) :
    (iblk0 V c 0 t : Vec Ideal S1024x4096 .f32) (ix2 r q) = (V c main_arg0 : S8192x8192.Idx → EReal) (ix2 i k) := by
  obtain ⟨e0, e1, -, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * r.val = i.val; rw [e0, hi]; omega
  | ⟨1, _⟩ => show win0_0.index t (1 : Fin 2) * 4096 + 1 * q.val = k.val; rw [e1, hk]; omega

/-- What the pair of points 2·i, 2·i + 1 leaves at row r of the output block: the degree scale of row 1024·i + r — the
    two half-row sums are the row's sum. -/
theorem block0_apply (c : Dev nD) (t : Fin cfg0.N) (hodd : t.val % 2 = 1) (r : Fin 1024) (u : Fin 1) (i : Fin 8192)
    (hi : i.val = t.val / 2 * 1024 + r.val) :
    outSecond0 (F := Ideal) (iblk0 V c 0 t) (outFirst0 (iblk0 V c 0 (prev0 t))) (ix2 r u)
      = Cert.Spec.deg (V c main_arg0) i := by
  rw [outSecond0_apply]
  unfold Cert.Spec.deg
  rw [sum_halves0]
  refine congrArg (fun s => Ideal.rsqrt (Cert.Spec.one + s)) ?_
  refine congrArg₂ (· + ·) (Finset.sum_congr rfl fun q _ => ?_) (Finset.sum_congr rfl fun q _ => ?_)
  · exact iblk0_apply V c (prev0 t) r q i _ (by show i.val = (t.val - 1) / 2 * 1024 + r.val; omega)
      (by show q.val = (t.val - 1) % 2 * 4096 + q.val; omega)
  · exact iblk0_apply V c t r q i _ hi (by show 4096 + q.val = t.val % 2 * 4096 + q.val; omega)

/-- The column of degree scales of the matrix the pass finds, as contents of the output array. -/
abbrev G0 (c : Dev nD) : Buf (Elt Ideal) ((c : Thread nD τ).loc main_v0) := Cert.Spec.degArr (V c main_arg0)

/-- What an odd point t = 2·i + 1 writes back is block i of the column of degree scales. -/
theorem flushed0_eq (c : Dev nD) (t : Fin cfg0.N) (hf : (cfg0.win 1).flush t = true) :
    (dat0 V c).flushed 1 t = ((cfg0.win 1).blk t).view.read (Elt Ideal) (G0 V c) := by
  have hodd : t.val % 2 = 1 := (flush0_1 t).mp hf
  have hN : t.val < 16 := lt_of_lt_of_eq t.isLt (show cfg0.N = 16 from N_0)
  obtain ⟨-, -, e2, e3⟩ := idx_facts0 t
  show (cfg0.win 1).cut (grid0.coords t) ((dat0 V c).after 1 t) = _
  rw [after0_1, outAt0_odd V c t (by omega)]
  funext j
  obtain ⟨r, u, rfl⟩ : ∃ (r : Fin 1024) (u : Fin 1), j = ix2 r u := ⟨j 0, j 1, eq_ix2 j⟩
  rw [View.read_apply]
  show outSecond0 (F := Ideal) (iblk0 V c 0 t) (outFirst0 (iblk0 V c 0 (prev0 t))) (ix2 r u)
    = Cert.Spec.degArr (V c main_arg0) (((cfg0.win 1).blk t).view.emb (ix2 r u))
  refine (block0_apply V c t hodd r u ⟨t.val / 2 * 1024 + r.val, by omega⟩ rfl).trans ?_
  refine congrArg (Cert.Spec.deg (V c main_arg0)) (Fin.ext ?_)
  show t.val / 2 * 1024 + r.val = win0_1.index t (0 : Fin 2) * 1024 + 1 * r.val
  rw [e2]; omega

/-- Every block of the output column is some odd point's. -/
theorem idx_onto0 : ∀ q0 : Fin 8, ∃ t : Fin cfg0.N, t.val % 2 = 1 ∧ win0_1.index t (0 : Fin 2) = q0.val ∧ win0_1.index t (1 : Fin 2) = 0 :=
  (by decide +kernel : ∀ q0 : Fin 8, ∃ t : Fin grid0.N, t.val % 2 = 1 ∧ win0_1.index t (0 : Fin 2) = q0.val ∧ win0_1.index t (1 : Fin 2) = 0)

/-- An index of the output column is in point t's block iff each coordinate is in the block's range on its axis. -/
theorem mem_blk0 (t : Fin cfg0.N) (i : S8192x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0).slice (win0_1.rect t)).set ↔ _
  rw [View.set_slice_whole, Rect.mem_set_unit]
  exact Iff.rfl

/-- The blocks the odd points write back cover the output column. -/
theorem cover0 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  obtain ⟨t, hodd, q0, q1⟩ := idx_onto0 ⟨(i 0).val / 1024, by omega⟩
  refine ⟨t, (flush0_1 t).mpr hodd, ?_⟩
  rw [mem_blk0]
  intro a
  match a with
  | ⟨0, _⟩ =>
    show win0_1.index t (0 : Fin 2) * 1024 ≤ (i 0).val ∧ (i 0).val < win0_1.index t (0 : Fin 2) * 1024 + 1024
    rw [q0]; dsimp only; omega
  | ⟨1, _⟩ =>
    show win0_1.index t (1 : Fin 2) * 1 ≤ (i 1).val ∧ (i 1).val < win0_1.index t (1 : Fin 2) * 1 + 1
    rw [q1]; omega

end Array

/-- THE OUTPUT OF THE DEGREE PASS: after the last point the output array holds the column of degree scales
    (1 + row sums)^(-1/2) of the matrix the pass found. -/
theorem final0 (V : (c : Dev nD) → (b : Ref sig .tc) → Buf (Elt Ideal) ((c : Thread nD τ).loc b)) (c : Dev nD) :
    (dat0 (F := Ideal) V c).arrAt 1 cfg0.N = Cert.Spec.degArr (V c main_arg0) :=
  (dat0 V c).arrAt_eq_of_cover 1 (G0 V c) (flushed0_eq V c) cover0

end Cert.KernelIdeal.Hand

end
-- ==== Proof.KI.Region1Value.lean ====
/-
  What the scaled-support pass leaves in its output array, at the ideal instance: entry (r, c) is (Σ_k X r k · W k c) · d r,
  with X, W and the column d of degree scales the arrays the pass finds.  The pass's payload is read at an index (a matrix
  product into a zero accumulator is the plain sum over the contraction; rounding to bf16 is the identity on the extended
  reals; the column of scales is broadcast along each row), each input block is read where the output's rectangle says
  (row block `t` of X and of d, the whole of W), and the four row blocks tile the array.
-/
import proofs.«152646_j44229573214372_2_alg».proof.Proof.KI.Region1
import proofs.«152646_j44229573214372_2_alg».proof.Proof.Spec
import proofs.«152646_j44229573214372_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hz_1 : (![0, 0] : Fin 2 → Nat) = fun _ => 0 := funext fun a => by fin_cases a <;> rfl

/-! ## The payload at an index -/

theorem lhs1_0 (i : S2048x256.Idx) (q : dot_S2048x512_S512x256_S2048x256_1_0_0_1_n_n.contr.Idx) : (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs1_1 (i : S2048x256.Idx) (q : dot_S2048x512_S512x256_S2048x256_1_0_0_1_n_n.contr.Idx) : (dot_S2048x512_S512x256_S2048x256_1_0_0_1_n_n.lhsIdx i q 1).val = (q ⟨0, by decide⟩).val :=
  dot_S2048x512_S512x256_S2048x256_1_0_0_1_n_n.lhsIdx_val_of_single rfl i q
theorem rhs1_0 (i : S2048x256.Idx) (q : dot_S2048x512_S512x256_S2048x256_1_0_0_1_n_n.contr.Idx) : (dot_S2048x512_S512x256_S2048x256_1_0_0_1_n_n.rhsIdx i q 0).val = (q ⟨0, by decide⟩).val :=
  dot_S2048x512_S512x256_S2048x256_1_0_0_1_n_n.rhsIdx_val_of_single rfl i q
theorem rhs1_1 (i : S2048x256.Idx) (q : dot_S2048x512_S512x256_S2048x256_1_0_0_1_n_n.contr.Idx) : (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The block's matrix product into a zero accumulator, at (p, q): the sum over the 512 contracted columns. -/
theorem matmul1_apply (l : FVec Ideal S2048x512 .bf16) (r : FVec Ideal S512x256 .bf16) (p : Fin 2048) (q : Fin 256) :
    matmul dot_S2048x512_S512x256_S2048x256_1_0_0_1_n_n none l r (constant S2048x256 .f32 0x00000000#32) (ix2 p q) = ∑ k : Fin 512, l (ix2 p k) * r (ix2 k q) := by
  refine (Ideal.matmul_constant_zero_apply dot_S2048x512_S512x256_S2048x256_1_0_0_1_n_n none l r (ix2 p q)).trans ?_
  rw [← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q) ((contrEquiv1 dot_S2048x512_S512x256_S2048x256_1_0_0_1_n_n 512 rfl rfl).symm k) = ix2 p k := funext fun a => Fin.ext (by
    match a with
    | ⟨0, _⟩ => exact lhs1_0 _ _
    | ⟨1, _⟩ => exact (lhs1_1 _ _).trans hk)
  have er : dot_S2048x512_S512x256_S2048x256_1_0_0_1_n_n.rhsIdx (ix2 p q) ((contrEquiv1 dot_S2048x512_S512x256_S2048x256_1_0_0_1_n_n 512 rfl rfl).symm k) = ix2 k q := funext fun a => Fin.ext (by
    match a with
    | ⟨0, _⟩ => exact (rhs1_0 _ _).trans hk
    | ⟨1, _⟩ => exact rhs1_1 _ _)
  rw [el, er]

/-- The pass's payload at (p, q): the product's entry times the row's scale. -/
theorem pay1_apply (x0 : FVec Ideal S2048x512 .f32) (x1 : FVec Ideal S512x256 .f32) (x2 : FVec Ideal S2048x1 .f32) (p : Fin 2048) (q : Fin 256) :
    (k1_pay1 (F := Ideal) x0 x1 x2 (ix2 p q) : EReal) = (∑ k : Fin 512, x0 (ix2 p k) * x1 (ix2 k q)) * x2 (ix2 p (0 : Fin 1)) := by
  unfold k1_pay1
  rw [truncf_apply, mulf_apply, shapeCast_self]
  refine congrArg₂ (· * ·) ?_ ?_
  · exact matmul1_apply _ _ p q
  · exact broadcastTo_a1_ab_apply (a := 2048) (b := 256) x2 broadcasts_S2048x1_S2048x256 p q

/-! ## Each input block where the output's rectangle says -/

variable (V : (c : Dev nD) → (b : Ref sig .tc) → Buf (Elt Ideal) ((c : Thread nD τ).loc b))

/-- The windows' block indices, decided over the four grid points: X, d and the output move together down the rows;
    W is the one block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Block `t` of X at (p, k) is X at (2048 t + p, k). -/
theorem iblk1_0_apply (c : Dev nD) (t : Fin cfg1.N) (p : Fin 2048) (k : Fin 512) (r : Fin 8192) (hr : r.val = 2048 * t.val + p.val) :
    (iblk1 V c 0 t : Vec Ideal S2048x512 .f32) (ix2 p k) = (V c main_arg1 : S8192x512.Idx → EReal) (ix2 r k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t 0 * 2048 + 1 * p.val = r.val; rw [e0, hr]; omega
  | ⟨1, _⟩ => show win1_0.index t 1 * 512 + 1 * k.val = k.val; rw [e1]; omega

/-- The one block of W is W. -/
theorem iblk1_1_apply (c : Dev nD) (t : Fin cfg1.N) (k : Fin 512) (q : Fin 256) :
    (iblk1 V c 1 t : Vec Ideal S512x256 .f32) (ix2 k q) = (V c main_arg2 : S512x256.Idx → EReal) (ix2 k q) := by
  obtain ⟨-, -, e0, e1, -⟩ := idx_facts1 t
  unfold iblk1
  rw [View.read_apply]
  show V c main_arg2 _ = V c main_arg2 _
  congr 1
  funext a
  apply Fin.ext
  match a with
  | ⟨0, _⟩ => show win1_1.index t 0 * 512 + 1 * k.val = k.val; rw [e0]; omega
  | ⟨1, _⟩ => show win1_1.index t 1 * 256 + 1 * q.val = q.val; rw [e1]; omega

/-- Block `t` of the column of scales at (p, 0) is the column at (2048 t + p, 0). -/
theorem iblk1_2_apply (c : Dev nD) (t : Fin cfg1.N) (p : Fin 2048) (r : Fin 8192) (hr : r.val = 2048 * t.val + p.val) :
    (iblk1 V c 2 t : Vec Ideal S2048x1 .f32) (ix2 p (0 : Fin 1)) = (V c main_v0 : S8192x1.Idx → EReal) (ix2 r (0 : Fin 1)) := by
  obtain ⟨-, -, -, -, e0, e1, -⟩ := idx_facts1 t
  unfold iblk1
  rw [View.read_apply]
  show V c main_v0 _ = V c main_v0 _
  congr 1
  funext a
  apply Fin.ext
  match a with
  | ⟨0, _⟩ => show win1_2.index t 0 * 2048 + 1 * p.val = r.val; rw [e0, hr]; omega
  | ⟨1, _⟩ => show win1_2.index t 1 * 1 + 1 * (0 : Fin 1).val = (0 : Fin 1).val; rw [e1]; rfl

/-! ## From the blocks to the array -/

/-- What point `t` writes back is block `t` of the scaled support of the arrays the pass finds. -/
theorem flushed1_eq (c : Dev nD) (t : Fin cfg1.N) :
    (dat1 V c).flushed 3 t = ((cfg1.win 3).blk t).view.read (Elt Ideal)
      (Cert.Spec.ssArr (V c main_arg1) (V c main_arg2) (V c main_v0)) := by
  show (cfg1.win 3).cut (grid1.coords t) ((dat1 V c).after 3 t) = _
  rw [after1_3]
  unfold out1_3
  rw [View.canon_unit_zero hz_1]
  simp only [View.ld_unit_zero (S := S2048x512) hz_1, View.ld_unit_zero (S := S512x256) hz_1, View.ld_unit_zero (S := S2048x1) hz_1]
  obtain ⟨-, -, -, -, -, -, e0, e1⟩ := idx_facts1 t
  have hN : t.val < 4 := lt_of_lt_of_eq t.isLt (show cfg1.N = 4 from N_1)
  funext j
  obtain ⟨p, q, rfl⟩ : ∃ (p : Fin 2048) (q : Fin 256), j = ix2 p q := ⟨j 0, j 1, eq_ix2 j⟩
  refine (pay1_apply (iblk1 V c 0 t) (iblk1 V c 1 t) (iblk1 V c 2 t) p q).trans ?_
  rw [View.read_apply]
  have hr : 2048 * t.val + p.val < 8192 := by have := p.isLt; omega
  have hemb : ((cfg1.win 3).blk t).view.emb (ix2 p q) = (ix2 (⟨2048 * t.val + p.val, hr⟩ : Fin 8192) q : S8192x256.Idx) := by
    funext a
    apply Fin.ext
    match a with
    | ⟨0, _⟩ => show win1_3.index t 0 * 2048 + 1 * p.val = 2048 * t.val + p.val; rw [e0]; omega
    | ⟨1, _⟩ => show win1_3.index t 1 * 256 + 1 * q.val = q.val; rw [e1]; omega
  show _ = Cert.Spec.ssArr (V c main_arg1) (V c main_arg2) (V c main_v0) (((cfg1.win 3).blk t).view.emb (ix2 p q))
  rw [hemb]
  unfold Cert.Spec.ssArr Cert.Spec.sup
  refine congrArg₂ (· * ·) (Finset.sum_congr rfl fun k _ => congrArg₂ (· * ·) ?_ ?_) ?_
  · exact iblk1_0_apply V c t p k _ rfl
  · exact iblk1_1_apply V c t k q
  · exact iblk1_2_apply V c t p _ rfl

/-- An index of the array is in point `t`'s block iff each coordinate is in the block's range on its axis. -/
theorem mem_blk1 (t : Fin cfg1.N) (i : S8192x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v1).slice (win1_3.rect t)).set ↔ _
  rw [View.set_slice_whole, Rect.mem_set_unit]
  exact Iff.rfl

/-- The array after the pass: the scaled support of the arrays the pass finds. -/
theorem final1 (c : Dev nD) :
    (dat1 V c).arrAt 3 cfg1.N = Cert.Spec.ssArr (V c main_arg1) (V c main_arg2) (V c main_v0) := by
  refine (dat1 V c).arrAt_eq_of_cover 3 _ (fun t _ => flushed1_eq V c t) fun i => ?_
  have hi0 : (i 0).val < 8192 := (i 0).isLt
  have hi1 : (i 1).val < 256 := (i 1).isLt
  have hN : cfg1.N = 4 := N_1
  refine ⟨⟨(i 0).val / 2048, by rw [hN]; omega⟩, flush1_3 _, ?_⟩
  rw [mem_blk1]
  obtain ⟨-, -, -, -, -, -, e0, e1⟩ := idx_facts1 ⟨(i 0).val / 2048, by rw [hN]; omega⟩
  intro a
  match a with
  | ⟨0, _⟩ =>
    show win1_3.index _ 0 * 2048 ≤ (i 0).val ∧ (i 0).val < win1_3.index _ 0 * 2048 + 2048
    rw [e0]; dsimp only; omega
  | ⟨1, _⟩ =>
    show win1_3.index _ 1 * 256 ≤ (i 1).val ∧ (i 1).val < win1_3.index _ 1 * 256 + 256
    rw [e1]; omega

end Cert.KernelIdeal.Hand

end
-- ==== Proof.KI.Region2Value.lean ====
/-
  The aggregation pass (third region) at the ideal instance: what its output array holds after the last point, as one
  function of the arrays the region found.  At point t = 4·i + k the body forms the product of the block (i, k) of A
  with the k-th panel of 2048 rows of the scaled support S (a sum over the block's 2048 columns), stores it at k = 0,
  adds it to the running block at k ≠ 0, and at k = 3 scales each row by its degree scale d.  So the block written
  back after a row of the grid is  ((((P₀ + P₁) + P₂) + P₃)) · d  with Pₖ the k-th partial product, and the four
  partial sums over 2048 columns are the one sum over all 8192: the array ends at (Σ_j A r j · S j c) · d r.
-/
import proofs.«152646_j44229573214372_2_alg».proof.Proof.KI.Region2
import proofs.«152646_j44229573214372_2_alg».proof.Proof.Spec
import proofs.«152646_j44229573214372_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

theorem hz_2 : (![0, 0] : Fin 2 → Nat) = fun _ => 0 := funext fun a => by fin_cases a <;> rfl

/-! ## The body's payloads at an index -/

theorem lhs2_0 (j : S1024x256.Idx) (q : dot_S1024x2048_S2048x256_S1024x256_1_0_0_1_n_n.contr.Idx) : (dot_S1024x2048_S2048x256_S1024x256_1_0_0_1_n_n.lhsIdx j q 0).val = (j 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs2_1 (j : S1024x256.Idx) (q : dot_S1024x2048_S2048x256_S1024x256_1_0_0_1_n_n.contr.Idx) : (dot_S1024x2048_S2048x256_S1024x256_1_0_0_1_n_n.lhsIdx j q 1).val = (q ⟨0, by decide⟩).val :=
  dot_S1024x2048_S2048x256_S1024x256_1_0_0_1_n_n.lhsIdx_val_of_single rfl j q
theorem rhs2_0 (j : S1024x256.Idx) (q : dot_S1024x2048_S2048x256_S1024x256_1_0_0_1_n_n.contr.Idx) : (dot_S1024x2048_S2048x256_S1024x256_1_0_0_1_n_n.rhsIdx j q 0).val = (q ⟨0, by decide⟩).val :=
  dot_S1024x2048_S2048x256_S1024x256_1_0_0_1_n_n.rhsIdx_val_of_single rfl j q
theorem rhs2_1 (j : S1024x256.Idx) (q : dot_S1024x2048_S2048x256_S1024x256_1_0_0_1_n_n.contr.Idx) : (dot_S1024x2048_S2048x256_S1024x256_1_0_0_1_n_n.rhsIdx j q 1).val = (j 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The partial product at an index: the contraction over the block's 2048 columns. -/
theorem pay1_apply2 (v0 : Vec Ideal S1024x2048 .f32) (v5 : Vec Ideal S2048x256 .bf16) (p : Fin 1024) (q : Fin 256) :
    k2_pay1 (F := Ideal) v0 v5 (ix2 p q) = ∑ k : Fin 2048, v0 (ix2 p k) * v5 (ix2 k q) := by
  unfold k2_pay1
  simp only [shapeCast_self]
  show FloatOps.matmul dot_S1024x2048_S2048x256_S1024x256_1_0_0_1_n_n none (truncf .bf16 v0 bitsLt_bf16_f32 : FVec Ideal S1024x2048 .bf16) (v5 : FVec Ideal S2048x256 .bf16) (constant S1024x256 .f32 0x00000000#32) (ix2 p q) = _
  rw [Ideal.matmul_constant_zero_apply]
  rw [← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p q) ((contrEquiv1 dot_S1024x2048_S2048x256_S1024x256_1_0_0_1_n_n 2048 rfl rfl).symm k) = ix2 p k := funext fun a => Fin.ext (by
    match a with
    | ⟨0, _⟩ => exact lhs2_0 _ _
    | ⟨1, _⟩ => exact (lhs2_1 _ _).trans hk)
  have er : dot_S1024x2048_S2048x256_S1024x256_1_0_0_1_n_n.rhsIdx (ix2 p q) ((contrEquiv1 dot_S1024x2048_S2048x256_S1024x256_1_0_0_1_n_n 2048 rfl rfl).symm k) = ix2 k q := funext fun a => Fin.ext (by
    match a with
    | ⟨0, _⟩ => exact (rhs2_0 _ _).trans hk
    | ⟨1, _⟩ => exact rhs2_1 _ _)
  rw [el, er]
  rfl

/-- The accumulating payload at an index: what the buffer held plus the partial product. -/
theorem pay2_apply2 (v0 : Vec Ideal S1024x2048 .f32) (v5 : Vec Ideal S2048x256 .bf16) (v17 : Vec Ideal S1024x256 .f32) (p : Fin 1024) (q : Fin 256) :
    k2_pay2 (F := Ideal) v0 v5 v17 (ix2 p q) = v17 (ix2 p q) + ∑ k : Fin 2048, v0 (ix2 p k) * v5 (ix2 k q) := by
  unfold k2_pay2
  simp only [shapeCast_self]
  rw [addf_apply, pay1_apply2]

/-- The scaling payload at an index: the accumulated row entry times the row's scale. -/
theorem pay3_apply2 (v17 : Vec Ideal S1024x256 .f32) (v19 : Vec Ideal S1024x1 .f32) (p : Fin 1024) (q : Fin 256) :
    k2_pay3 (F := Ideal) v17 v19 (ix2 p q) = v17 (ix2 p q) * v19 (ix2 p (0 : Fin 1)) := by
  unfold k2_pay3
  simp only [shapeCast_self]
  rw [mulf_apply, broadcastTo_a1_ab_apply]

/-! ## What each case of the body leaves, at an index -/

/-- The panel of the resident scaled support the body loads at grid coordinates `i`: 2048 rows from row 2048·k. -/
abbrev panel2 (x1 : Vec Ideal S8192x256 .bf16) (i : grid2.Coords) : Vec Ideal S2048x256 .bf16 :=
  View.ld x1 (Rect.unit (s := S8192x256) (k2_off1 i) S2048x256.size (k2_off1_inb i))

/-- k = 0: the partial product of the block of A with the first panel. -/
theorem out2_A_apply (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : k2_cond1 i = 1#1) (hc2 : ¬k2_cond2 i = 1#1) (hc3 : ¬k2_cond3 i = 1#1)
    (x0 : Vec Ideal S1024x2048 .f32) (x1 : Vec Ideal S8192x256 .bf16) (x2 : Vec Ideal S1024x1 .f32) (p : Fin 1024) (q : Fin 256) :
    out2_A_3 (F := Ideal) c i arg2 harg2 arg3 harg3 arg4 harg4 arg5 harg5 hc1 hc2 hc3 x0 x1 x2 (ix2 p q)
      = ∑ k : Fin 2048, x0 (ix2 p k) * panel2 x1 i (ix2 k q) := by
  unfold out2_A_3
  rw [View.read_writes_eq_canon _ _ _ (cover2_A_3 c i arg2 harg2 arg3 harg3 arg4 harg4 arg5 harg5 hc1 hc2 hc3 x0 x1 x2)]
  unfold kernelRun2_A
  dsimp only
  rw [View.canon_unit_zero hz_2]
  simp only [View.readAt_eq_ld, harg2.read_unread, harg3.read_unread, View.ld_unit_zero (S := S1024x2048) hz_2]
  rw [pay1_apply2]

/-- k = 1, 2: what the buffer held plus the partial product with the k-th panel. -/
theorem out2_B_apply (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : ¬k2_cond1 i = 1#1) (hc2 : k2_cond2 i = 1#1) (hc3 : ¬k2_cond3 i = 1#1)
    (x0 : Vec Ideal S1024x2048 .f32) (x1 : Vec Ideal S8192x256 .bf16) (x2 : Vec Ideal S1024x1 .f32) (xo : Vec Ideal S1024x256 .f32) (p : Fin 1024) (q : Fin 256) :
    out2_B_3 (F := Ideal) c i arg2 harg2 arg3 harg3 arg4 harg4 arg5 harg5 hc1 hc2 hc3 x0 x1 x2 xo (ix2 p q)
      = xo (ix2 p q) + ∑ k : Fin 2048, x0 (ix2 p k) * panel2 x1 i (ix2 k q) := by
  unfold out2_B_3
  rw [View.read_writes_eq_canon _ _ _ (cover2_B_3 c i arg2 harg2 arg3 harg3 arg4 harg4 arg5 harg5 hc1 hc2 hc3 x0 x1 x2 xo)]
  unfold kernelRun2_B
  dsimp only
  rw [View.canon_unit_zero hz_2]
  simp only [View.readAt_eq_ld, harg2.read_unread, harg3.read_unread, harg5.read_unread, View.ld_unit_zero (S := S1024x2048) hz_2, View.ld_unit_zero (S := S1024x256) hz_2]
  rw [pay2_apply2]

/-- k = 3: the same sum, then the row scaled by its degree scale. -/
theorem out2_C_apply (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .f32) (harg5 : arg5.IsWhole) (hc1 : ¬k2_cond1 i = 1#1) (hc2 : k2_cond2 i = 1#1) (hc3 : k2_cond3 i = 1#1)
    (x0 : Vec Ideal S1024x2048 .f32) (x1 : Vec Ideal S8192x256 .bf16) (x2 : Vec Ideal S1024x1 .f32) (xo : Vec Ideal S1024x256 .f32) (p : Fin 1024) (q : Fin 256) :
    out2_C_3 (F := Ideal) c i arg2 harg2 arg3 harg3 arg4 harg4 arg5 harg5 hc1 hc2 hc3 x0 x1 x2 xo (ix2 p q)
      = (xo (ix2 p q) + ∑ k : Fin 2048, x0 (ix2 p k) * panel2 x1 i (ix2 k q)) * x2 (ix2 p (0 : Fin 1)) := by
  unfold out2_C_3
  rw [View.read_writes_eq_canon _ _ _ (cover2_C_3 c i arg2 harg2 arg3 harg3 arg4 harg4 arg5 harg5 hc1 hc2 hc3 x0 x1 x2 xo)]
  unfold kernelRun2_C
  dsimp only
  sl_unfold_words
  rw [View.canon_cons_unit_zero (S := S1024x256) hz_2, View.readCov_unit_zero (S := S1024x256) _ hz_2]
  simp only [View.readAt_eq_ld, harg2.read_unread, harg3.read_unread, harg4.read_unread, harg5.read_unread, View.ld_unit_zero (S := S1024x2048) hz_2, View.ld_unit_zero (S := S1024x256) hz_2, View.ld_unit_zero (S := S1024x1) hz_2]
  rw [pay3_apply2, pay2_apply2]
  rfl

/-! ## The blocks read at an index -/

variable (V : (c : Dev nD) → (b : Ref sig .tc) → Buf (Elt Ideal) ((c : Thread nD τ).loc b))

/-- The printed index maps and the panel offset over the grid: point t is row block t / 4, panel t mod 4. -/
theorem idx_facts2 : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0
    ∧ k2_off1 (grid2.coords t) (0 : Fin 2) = 2048 * (t.val % 4) ∧ k2_off1 (grid2.coords t) (1 : Fin 2) = 0 :=
  (by decide +kernel : ∀ t : Fin grid2.N, _)

/-- The block of A at point t, at (p, k): A at row 1024·(t / 4) + p, column 2048·(t mod 4) + k. -/
theorem iblk2_0_apply (c : Dev nD) (t : Fin cfg2.N) (p : Fin 1024) (k : Fin 2048) (r : Fin 8192) (j : Fin 8192)
    (hr : r.val = 1024 * (t.val / 4) + p.val) (hj : j.val = 2048 * (t.val % 4) + k.val) :
    (iblk2 V c 0 t : Vec Ideal S1024x2048 .f32) (ix2 p k) = V c main_arg0 (ix2 r j) := by
  obtain ⟨e0, e1, -⟩ := idx_facts2 t
  unfold iblk2
  rw [View.read_apply]
  show V c main_arg0 _ = V c main_arg0 _
  congr 1
  funext a
  apply Fin.ext
  match a with
  | ⟨0, _⟩ => show win2_0.index t 0 * 1024 + 1 * p.val = r.val; rw [e0, hr]; omega
  | ⟨1, _⟩ => show win2_0.index t 1 * 2048 + 1 * k.val = j.val; rw [e1, hj]; omega

/-- The panel of the scaled support loaded at point t, at (k, q): S at row 2048·(t mod 4) + k, column q. -/
theorem panel2_apply (c : Dev nD) (t : Fin cfg2.N) (k : Fin 2048) (q : Fin 256) (j : Fin 8192)
    (hj : j.val = 2048 * (t.val % 4) + k.val) :
    panel2 (iblk2 V c 1 t) (grid2.coords t) (ix2 k q) = V c main_v1 (ix2 j q) := by
  obtain ⟨-, -, e2, e3, -, -, -, -, e8, e9⟩ := idx_facts2 t
  show (iblk2 V c 1 t) ((Rect.unit (s := S8192x256) (k2_off1 (grid2.coords t)) S2048x256.size (k2_off1_inb (grid2.coords t))).idx (ix2 k q)) = _
  unfold iblk2
  rw [View.read_apply]
  show V c main_v1 _ = V c main_v1 _
  congr 1
  funext a
  apply Fin.ext
  match a with
  | ⟨0, _⟩ => show win2_1.index t 0 * 8192 + 1 * (k2_off1 (grid2.coords t) 0 + 1 * k.val) = j.val; rw [e2, e8, hj]; omega
  | ⟨1, _⟩ => show win2_1.index t 1 * 256 + 1 * (k2_off1 (grid2.coords t) 1 + 1 * q.val) = q.val; rw [e3, e9]; omega

/-- The block of degree scales at point t, at (p, 0): d at row 1024·(t / 4) + p. -/
theorem iblk2_2_apply (c : Dev nD) (t : Fin cfg2.N) (p : Fin 1024) (r : Fin 8192)
    (hr : r.val = 1024 * (t.val / 4) + p.val) :
    (iblk2 V c 2 t : Vec Ideal S1024x1 .f32) (ix2 p (0 : Fin 1)) = V c main_v0 (ix2 r (0 : Fin 1)) := by
  obtain ⟨-, -, -, -, e4, e5, -⟩ := idx_facts2 t
  unfold iblk2
  rw [View.read_apply]
  show V c main_v0 _ = V c main_v0 _
  congr 1
  funext a
  apply Fin.ext
  match a with
  | ⟨0, _⟩ => show win2_2.index t 0 * 1024 + 1 * p.val = r.val; rw [e4, hr]; omega
  | ⟨1, _⟩ => show win2_2.index t 1 * 1 + 1 * 0 = 0; rw [e5]

/-! ## The partial product of a point, and the accumulation over a row of the grid -/

/-- The three arrays the region finds, and the three blocks of a point, as functions to the extended reals. -/
abbrev arrA2 (c : Dev nD) : Cert.Spec.SA.Idx → EReal := V c main_arg0
abbrev arrS2 (c : Dev nD) : Cert.Spec.SO.Idx → EReal := V c main_v1
abbrev arrD2 (c : Dev nD) : Cert.Spec.SD.Idx → EReal := V c main_v0
abbrev blkA2 (c : Dev nD) (t : Fin cfg2.N) : S1024x2048.Idx → EReal := iblk2 V c 0 t
abbrev blkS2 (c : Dev nD) (t : Fin cfg2.N) : S8192x256.Idx → EReal := iblk2 V c 1 t
abbrev blkD2 (c : Dev nD) (t : Fin cfg2.N) : S1024x1.Idx → EReal := iblk2 V c 2 t

theorem blkD2_apply (c : Dev nD) (t : Fin cfg2.N) (p : Fin 1024) (r : Fin 8192) (hr : r.val = 1024 * (t.val / 4) + p.val) :
    blkD2 V c t (ix2 p (0 : Fin 1)) = arrD2 V c (ix2 r (0 : Fin 1)) := iblk2_2_apply V c t p r hr

/-- The partial product the body forms at point t, at (p, q). -/
def psum2 (c : Dev nD) (t : Fin cfg2.N) (p : Fin 1024) (q : Fin 256) : EReal :=
  ∑ k : Fin 2048, blkA2 V c t (ix2 p k) * panel2 (blkS2 V c t) (grid2.coords t) (ix2 k q)

/-- It is the sum over the m-th run of 2048 columns of A's row against the same rows of S, m = t mod 4. -/
theorem psum2_eq (c : Dev nD) (t : Fin cfg2.N) (p : Fin 1024) (q : Fin 256) (r : Fin 8192) (m : ℕ) (hm4 : m < 4)
    (hr : r.val = 1024 * (t.val / 4) + p.val) (hm : t.val % 4 = m) :
    psum2 V c t p q = ∑ k : Fin 2048, arrA2 V c (ix2 r ⟨2048 * m + k.val, by omega⟩) * arrS2 V c (ix2 ⟨2048 * m + k.val, by omega⟩ q) := by
  unfold psum2
  refine Finset.sum_congr rfl fun k _ => ?_
  exact congrArg₂ (· * ·) (iblk2_0_apply V c t p k r ⟨2048 * m + k.val, by omega⟩ hr (by rw [hm])) (panel2_apply V c t k q ⟨2048 * m + k.val, by omega⟩ (by rw [hm]))

theorem val2_A (c : Dev nD) (n : ℕ) (h : n < cfg2.N) (h0 : n % 4 = 0) (p : Fin 1024) (q : Fin 256) :
    outsAt2 V c n h (ix2 p q) = psum2 V c ⟨n, h⟩ p q := by
  have e := outsAt2_A V c ⟨n, h⟩ h0
  unfold psum2
  exact (congrFun e (ix2 p q)).trans (out2_A_apply c _ _ _ _ _ _ _ _ _ _ _ _ _ _ _ p q)

theorem val2_B (c : Dev nD) (n : ℕ) (h : n + 1 < cfg2.N) (h0 : ¬(n + 1) % 4 = 0) (h3 : ¬(n + 1) % 4 = 3) (p : Fin 1024) (q : Fin 256) :
    outsAt2 V c (n + 1) h (ix2 p q) = outsAt2 V c n (Nat.lt_of_succ_lt h) (ix2 p q) + psum2 V c ⟨n + 1, h⟩ p q := by
  have e := outsAt2_B V c ⟨n + 1, h⟩ h0 h3
  unfold psum2
  exact (congrFun e (ix2 p q)).trans (out2_B_apply c _ _ _ _ _ _ _ _ _ _ _ _ _ _ _ _ p q)

theorem val2_C (c : Dev nD) (n : ℕ) (h : n + 1 < cfg2.N) (h0 : ¬(n + 1) % 4 = 0) (h3 : (n + 1) % 4 = 3) (p : Fin 1024) (q : Fin 256) :
    outsAt2 V c (n + 1) h (ix2 p q) = (outsAt2 V c n (Nat.lt_of_succ_lt h) (ix2 p q) + psum2 V c ⟨n + 1, h⟩ p q)
      * blkD2 V c ⟨n + 1, h⟩ (ix2 p (0 : Fin 1)) := by
  have e := outsAt2_C V c ⟨n + 1, h⟩ h0 h3
  unfold psum2
  exact (congrFun e (ix2 p q)).trans (out2_C_apply c _ _ _ _ _ _ _ _ _ _ _ _ _ _ _ _ p q)

/-- After the last point of a row of the grid the output's staging buffer holds the four partial products summed in
    point order, each row scaled by its degree scale. -/
theorem row2 (c : Dev nD) (n : ℕ) (h : n + 3 < cfg2.N) (hn : n % 4 = 0) (p : Fin 1024) (q : Fin 256) :
    outsAt2 V c (n + 3) h (ix2 p q)
      = (((psum2 V c ⟨n, Nat.lt_of_succ_lt (Nat.lt_of_succ_lt (Nat.lt_of_succ_lt h))⟩ p q + psum2 V c ⟨n + 1, Nat.lt_of_succ_lt (Nat.lt_of_succ_lt h)⟩ p q) + psum2 V c ⟨n + 2, Nat.lt_of_succ_lt h⟩ p q) + psum2 V c ⟨n + 3, h⟩ p q)
        * blkD2 V c ⟨n + 3, h⟩ (ix2 p (0 : Fin 1)) := by
  have hN : cfg2.N = 32 := N_2
  rw [val2_C V c (n + 2) h (by omega) (by omega) p q, val2_B V c (n + 1) (by omega) (by omega) (by omega) p q,
    val2_B V c n (by omega) (by omega) (by omega) p q, val2_A V c n (by omega) hn p q]

/-! ## The sum over 8192 columns as four sums over 2048 -/

theorem sum_8192_2 (g : Fin 8192 → EReal) :
    ∑ j : Fin 8192, g j = ((∑ k : Fin 2048, g ⟨2048 * 0 + k.val, by omega⟩ + ∑ k : Fin 2048, g ⟨2048 * 1 + k.val, by omega⟩)
      + ∑ k : Fin 2048, g ⟨2048 * 2 + k.val, by omega⟩) + ∑ k : Fin 2048, g ⟨2048 * 3 + k.val, by omega⟩ := by
  have e : ∀ (a : Fin 4) (k : Fin 2048), (finProdFinEquiv : Fin 4 × Fin 2048 ≃ Fin 8192) (a, k) = ⟨2048 * a.val + k.val, by omega⟩ :=
    fun a k => Fin.ext (by simp [finProdFinEquiv]; omega)
  rw [← Equiv.sum_comp (finProdFinEquiv : Fin 4 × Fin 2048 ≃ Fin 8192), Fintype.sum_prod_type, Fin.sum_univ_four]
  simp only [e]
  rfl

/-- The aggregation at an index whose coordinates are known. -/
theorem aggArr_apply2 (A : Cert.Spec.SA.Idx → EReal) (S : Cert.Spec.SO.Idx → EReal) (D : Cert.Spec.SD.Idx → EReal) (y : Cert.Spec.SO.Idx)
    (r : Fin 8192) (q : Fin 256) (hr : (y 0).val = r.val) (hq : (y 1).val = q.val) :
    Cert.Spec.aggArr A S D y = (∑ j : Fin 8192, A (ix2 r j) * S (ix2 j q)) * D (ix2 r (0 : Fin 1)) := by
  unfold Cert.Spec.aggArr
  have e0 : (⟨(y 0).val, idx2_lt0 y⟩ : Fin 8192) = r := Fin.ext hr
  have e1 : (⟨(y 1).val, idx2_lt1 y⟩ : Fin 256) = q := Fin.ext hq
  rw [e0, e1]

/-! ## The output array after the last point -/

/-- What a point that writes back writes is its block of the aggregation of the arrays the region found. -/
theorem flushed2_eq (c : Dev nD) (t : Fin cfg2.N) (hf : (cfg2.win 3).flush t = true) :
    (dat2 (F := Ideal) V c).flushed 3 t
      = ((cfg2.win 3).blk t).view.read (Elt Ideal) (Cert.Spec.aggArr (V c main_arg0) (V c main_v1) (V c main_v0)) := by
  have hN : cfg2.N = 32 := N_2
  have h3 : t.val % 4 = 3 := (flush2_3 t).mp hf
  obtain ⟨-, -, -, -, -, -, e6, e7, -⟩ := idx_facts2 t
  show (cfg2.win 3).cut (grid2.coords t) ((dat2 (F := Ideal) V c).after 3 t) = _
  rw [after2_3]
  refine funext fun (j : S1024x256.Idx) => ?_
  obtain ⟨p, q, rfl⟩ : ∃ (p : Fin 1024) (q : Fin 256), j = ix2 p q := ⟨j 0, j 1, eq_ix2 j⟩
  show outsAt2 V c t.val t.isLt (ix2 p q) = Cert.Spec.aggArr (V c main_arg0) (V c main_v1) (V c main_v0) (((cfg2.win 3).blk t).view.emb (ix2 p q))
  obtain ⟨tv, ht⟩ := t
  obtain ⟨n, rfl⟩ : ∃ n, tv = n + 3 := ⟨tv - 3, by dsimp only at h3; omega⟩
  have hn : n % 4 = 0 := by dsimp only at h3; omega
  have hlt : 1024 * (n / 4) + p.val < 8192 := by omega
  rw [aggArr_apply2 _ _ _ _ ⟨1024 * (n / 4) + p.val, hlt⟩ q
    (by show win2_3.index ⟨n + 3, ht⟩ 0 * 1024 + 1 * p.val = 1024 * (n / 4) + p.val; rw [e6]; dsimp only; omega)
    (by show win2_3.index ⟨n + 3, ht⟩ 1 * 256 + 1 * q.val = q.val; rw [e7]; omega)]
  rw [row2 V c n ht hn p q,
    psum2_eq V c ⟨n, by omega⟩ p q ⟨1024 * (n / 4) + p.val, hlt⟩ 0 (by omega) rfl hn,
    psum2_eq V c ⟨n + 1, by omega⟩ p q ⟨1024 * (n / 4) + p.val, hlt⟩ 1 (by omega) (by dsimp only; omega) (by dsimp only; omega),
    psum2_eq V c ⟨n + 2, by omega⟩ p q ⟨1024 * (n / 4) + p.val, hlt⟩ 2 (by omega) (by dsimp only; omega) (by dsimp only; omega),
    psum2_eq V c ⟨n + 3, ht⟩ p q ⟨1024 * (n / 4) + p.val, hlt⟩ 3 (by omega) (by dsimp only; omega) (by dsimp only; omega),
    blkD2_apply V c ⟨n + 3, ht⟩ p ⟨1024 * (n / 4) + p.val, hlt⟩ (by dsimp only; omega)]
  exact congrArg (· * arrD2 V c (ix2 ⟨1024 * (n / 4) + p.val, hlt⟩ (0 : Fin 1)))
    (sum_8192_2 fun j => arrA2 V c (ix2 ⟨1024 * (n / 4) + p.val, hlt⟩ j) * arrS2 V c (ix2 j q)).symm

/-- An index of the output array is in point t's block iff each coordinate is in the block's range on its axis. -/
theorem mem_blk2_3 (t : Fin cfg2.N) (i : S8192x256.Idx) :
    i ∈ ((cfg2.win 3).blk t).view.set ↔ ∀ a : Fin 2, win2_3.index t a * S1024x256.size a ≤ (i a).val ∧ (i a).val < win2_3.index t a * S1024x256.size a + S1024x256.size a := by
  show i ∈ ((View.whole main_v2).slice (win2_3.rect t)).set ↔ _
  rw [View.set_slice_whole, Rect.mem_set_unit]
  exact Iff.rfl

/-- Every index of the output array is in the block of the last point of its row of the grid. -/
theorem cover2_3 (i : S8192x256.Idx) : ∃ t : Fin cfg2.N, (cfg2.win 3).flush t = true ∧ i ∈ ((cfg2.win 3).blk t).view.set := by
  have hN : cfg2.N = 32 := N_2
  have hi0 : (i 0).val < 8192 := (i 0).isLt
  have hi1 : (i 1).val < 256 := (i 1).isLt
  obtain ⟨t, ht⟩ : ∃ t : Fin cfg2.N, t.val = 4 * ((i 0).val / 1024) + 3 := ⟨⟨4 * ((i 0).val / 1024) + 3, by omega⟩, rfl⟩
  obtain ⟨-, -, -, -, -, -, e6, e7, -⟩ := idx_facts2 t
  refine ⟨t, (flush2_3 t).mpr (by omega), ?_⟩
  rw [mem_blk2_3]
  intro a
  match a with
  | ⟨0, _⟩ => show win2_3.index t 0 * 1024 ≤ (i 0).val ∧ (i 0).val < win2_3.index t 0 * 1024 + 1024; rw [e6]; omega
  | ⟨1, _⟩ => show win2_3.index t 1 * 256 ≤ (i 1).val ∧ (i 1).val < win2_3.index t 1 * 256 + 256; rw [e7]; omega

/-- THE OUTPUT ARRAY after the last point: the aggregation (Σ_j A r j · S j c) · d r of the arrays the region found. -/
theorem final2 (V : (c : Dev nD) → (b : Ref sig .tc) → Buf (Elt Ideal) ((c : Thread nD τ).loc b)) (c : Dev nD) :
    (dat2 (F := Ideal) V c).arrAt 3 cfg2.N = Cert.Spec.aggArr (V c main_arg0) (V c main_v1) (V c main_v0) :=
  (dat2 (F := Ideal) V c).arrAt_eq_of_cover 3 _ (flushed2_eq V c) cover2_3

end Cert.KernelIdeal.Hand

end
-- ==== Proof.KI.RunValue.lean ====
/-
  The kernel program's run at the ideal instance, read: following the three passes' arrays through the valuations between
  them — the degree scales of the launched A, the support of the launched X and W scaled by them, the aggregation of both —
  the result array ends at the kernel's function of the launched arguments.
-/
import proofs.«152646_j44229573214372_2_alg».proof.Proof.KI.Run
import proofs.«152646_j44229573214372_2_alg».proof.Proof.KI.Region0Value
import proofs.«152646_j44229573214372_2_alg».proof.Proof.KI.Region1Value
import proofs.«152646_j44229573214372_2_alg».proof.Proof.KI.Region2Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## What each pass finds in the arrays it reads -/

theorem V1_main_arg1 (c : Dev nD) : V1 m ρ c main_arg1 = m ((c : Thread nD τ).loc main_arg1) :=
  (W1_of_ne m ρ c main_arg1 (by decide)).trans rfl
theorem V1_main_arg2 (c : Dev nD) : V1 m ρ c main_arg2 = m ((c : Thread nD τ).loc main_arg2) :=
  (W1_of_ne m ρ c main_arg2 (by decide)).trans rfl
theorem V2_main_arg0 (c : Dev nD) : V2 m ρ c main_arg0 = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The first pass leaves the column of degree scales of the launched A. -/
theorem V1_main_v0 (c : Dev nD) : V1 m ρ c main_v0 = Cert.Spec.degArr (m ((c : Thread nD τ).loc main_arg0)) :=
  (W1_arr m ρ c 1).trans (final0 (V0 m ρ) c)

/-- The second pass reads it through an input window and leaves it in place. -/
theorem V2_main_v0 (c : Dev nD) : V2 m ρ c main_v0 = Cert.Spec.degArr (m ((c : Thread nD τ).loc main_arg0)) :=
  ((W2_arr m ρ c 2).trans (((dat1 (V1 m ρ) c).arrAt_in 2 rfl _).trans (A_eq1 (V1 m ρ) c 2))).trans (V1_main_v0 m ρ c)

/-- The second pass leaves the support of the launched X and W scaled by those degree scales. -/
theorem V2_main_v1 (c : Dev nD) : V2 m ρ c main_v1
    = Cert.Spec.ssArr (m ((c : Thread nD τ).loc main_arg1)) (m ((c : Thread nD τ).loc main_arg2)) (Cert.Spec.degArr (m ((c : Thread nD τ).loc main_arg0))) := by
  refine ((W2_arr m ρ c 3).trans (final1 (V1 m ρ) c)).trans ?_
  rw [V1_main_arg1, V1_main_arg2, V1_main_v0]

/-- The last pass leaves the aggregation: the kernel's result. -/
theorem W3_main_v2 (c : Dev nD) : W3 m ρ c (Proc.devRef .tc main_v2)
    = Cert.Spec.kernelOut (m ((c : Thread nD τ).loc main_arg0)) (m ((c : Thread nD τ).loc main_arg1)) (m ((c : Thread nD τ).loc main_arg2)) := by
  refine ((W3_arr m ρ c 3).trans (final2 (V2 m ρ) c)).trans ?_
  rw [V2_main_arg0, V2_main_v1, V2_main_v0]
  rfl

/-- The run, read: the result array at the kernel's function of the launched arguments, the arguments unchanged. -/
theorem run_value : θ_run defs (onTc (τ := τ) (main (F := Ideal))) ⟨m, fun _ => 0, ρ⟩ (fun r => ∀ c : Dev nD,
      r.2.mem ((c.tc : Thread nD τ).loc main_v2) = Cert.Spec.kernelOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.RefValue.lean ====
/-
  The reference program's result, read index by index, is the layer's reference formula
    out i c = Σ_j ((d i · A i j) · d j) · (X · W) j c,   d i = (1 + Σ_j A i j)^(-1/2).
-/
import proofs.«152646_j44229573214372_2_alg».proof.Proof.Gen.ReferenceIdeal.Read
import proofs.«152646_j44229573214372_2_alg».proof.Proof.Spec

noncomputable section

namespace Cert.RefValue

open Cert.ReferenceIdeal Cert.ReferenceIdeal.Read Idealize.ShloMosaic Idealize.ShloMosaic.ValueIdx

/-- The reference's vector of degree scales at an index is the degree scale of the index's coordinate:
    rsqrt (1 + (0 + Σ_k A i k)). -/
theorem v3_eq (x0 : (⟨S8192x8192, .f32⟩ : BufTy).Contents (Elt Ideal)) (j : S8192.Idx) :
    val_main_v3 (F := Ideal) x0 j = Cert.Spec.deg x0 (j 0) := by
  rw [val_main_v3_apply, val_main_v2_apply, val_main_v1_apply, val_main_cst_0_apply, val_main_v0_apply,
    val_main_cst_apply]
  simp only [Ideal.hostUnary_rsqrt_def, Ideal.addf_def, Ideal.ofBits_def, Ideal.ofBits_zero_f32, zero_add]
  unfold Cert.Spec.deg
  refine congrArg (fun t => Ideal.rsqrt (Cert.Spec.one + t)) (Finset.sum_congr rfl fun k _ => ?_)
  exact congrArg x0 (funext fun a => Fin.ext (by match a with | ⟨0, _⟩ => rfl | ⟨1, _⟩ => rfl))

/-- The reference's result is the reference formula. -/
theorem ref_eq (x0 : (⟨Cert.ReferenceIdeal.S8192x8192, .f32⟩ : BufTy).Contents (Elt Ideal))
    (x1 : (⟨Cert.ReferenceIdeal.S8192x512, .f32⟩ : BufTy).Contents (Elt Ideal))
    (x2 : (⟨Cert.ReferenceIdeal.S512x256, .f32⟩ : BufTy).Contents (Elt Ideal)) :
    Cert.ReferenceIdeal.Read.val_main_v11 (F := Ideal) x0 x1 x2 = Cert.Spec.refOut x0 x1 x2 := by
  funext y
  rw [val_main_v11_apply]
  unfold Cert.Spec.refOut
  refine Finset.sum_congr rfl fun k _ => ?_
  rw [val_main_v9_apply, val_main_v6_apply, val_main_v5_apply, val_main_v4_apply, val_main_v8_apply,
    val_main_v7_apply, v3_eq, v3_eq, val_main_v10_apply]
  simp only [Ideal.mulf_def]
  unfold Cert.Spec.sup
  have e1 : lidx_main_v11 y k = ix2 ⟨(y 0).val, idx2_lt0 y⟩ k :=
    funext fun a => Fin.ext (by match a with | ⟨0, _⟩ => rfl | ⟨1, _⟩ => rfl)
  have e2 : (idx_main_v4 (idx_main_v5 (lidx_main_v11 y k))) 0 = ⟨(y 0).val, idx2_lt0 y⟩ := rfl
  have e3 : (idx_main_v7 (idx_main_v8 (lidx_main_v11 y k))) 0 = k := rfl
  have e4 : ∀ q : Fin 512, lidx_main_v10 (ridx_main_v11 y k) q = ix2 k q := fun q =>
    funext fun a => Fin.ext (by match a with | ⟨0, _⟩ => rfl | ⟨1, _⟩ => rfl)
  have e5 : ∀ q : Fin 512, ridx_main_v10 (ridx_main_v11 y k) q = ix2 q ⟨(y 1).val, idx2_lt1 y⟩ := fun q =>
    funext fun a => Fin.ext (by match a with | ⟨0, _⟩ => rfl | ⟨1, _⟩ => rfl)
  rw [e2, e3, e1]
  simp only [e4, e5]
  rfl

end Cert.RefValue

end
-- ==== Proof.PreFacts.lean ====
/-
  The precondition read back: a run of the printed predicate that returns 1 says that every entry of A, X and W is a
  real (|x| < +inf on the extended reals leaves exactly the reals) and that every 1 + row sum of A is positive.
-/
import proofs.«152646_j44229573214372_2_alg».proof.Pre_finite_inputs
import proofs.«152646_j44229573214372_2_alg».proof.Proof.Gen.Pre_finite_inputs
import proofs.«152646_j44229573214372_2_alg».proof.Proof.Spec
import Idealize.ShloMosaic.Lib.ReduceAll
import Idealize.ShloMosaic.PureOps.Ideal.Laws
import Idealize.ShloMosaic.Lib.ValueIdx

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- The f32 pattern 0x7F800000 is +inf. -/
theorem ofBits_inf : Ideal.ofBits .f32 0x7F800000#32 = ⊤ := by simp [Ideal.ofBits, Ideal.ieee]

/-- An extended real whose absolute value max x (-x) is below +inf is a real: at ⊥ and at ⊤ the absolute value is ⊤. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The comparison "1 + s > 0.0" that returns 1 says 0 < 1 + s. -/
theorem pos_of_cmp (s : EReal)
    (h : Ideal.cmp .ogt (Cert.Spec.one + s) (Ideal.ofBits .f32 0x00000000#32) = 1#1) : 0 < Cert.Spec.one + s := by
  rw [Ideal.ofBits_zero_f32] at h
  by_contra hn
  unfold Ideal.cmp at h
  simp only [decide_eq_false hn] at h
  exact absurd h (by decide)

/-- The host's sum of A over its second axis, from 0.0, at row i is Σ_j A i j. -/
theorem rowsum (h' : S8192x8192.ReducesTo [1] S8192) (A : FVec Ideal S8192x8192 .f32) (i : Fin 8192) :
    Ideal.hostReduceAdd h' A (Ideal.ofBits .f32 0x00000000#32) (ix1 i) = ∑ j : Fin 8192, A (ix2 i j) := by
  rw [Ideal.hostReduceAdd_single h' (by decide), Ideal.ofBits_zero_f32, zero_add]
  refine Finset.sum_congr rfl fun k _ => ?_
  exact congrArg A (funext fun a => Fin.ext (by match a with | ⟨0, _⟩ => rfl | ⟨1, _⟩ => rfl))

theorem of_pre [hP : Cert.Pre_finite_inputs.Facts] (A : FVec Ideal Cert.Pre_finite_inputs.S8192x8192 .f32)
    (X : FVec Ideal Cert.Pre_finite_inputs.S8192x512 .f32) (W : FVec Ideal Cert.Pre_finite_inputs.S512x256 .f32)
    (h : Cert.Pre_finite_inputs.fn (F := Ideal) A X W = fun _ => 1#1) :
    (∀ i, ∃ r : ℝ, A i = (r : EReal)) ∧ (∀ i, ∃ r : ℝ, X i = (r : EReal)) ∧ (∀ i, ∃ r : ℝ, W i = (r : EReal))
      ∧ (∀ i : Fin 8192, (0 : EReal) < Cert.Spec.one + ∑ j : Fin 8192, A (ValueIdx.ix2 i j)) := by
  have h0 := congrFun h ValueIdx.ix0
  dsimp only [fn, fn_part1] at h0
  -- the four conjuncts
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt (A i) (Host.reduce_andi_all _ _ _ _ _ h1 i)
  · exact real_of_abs_lt (X i) (Host.reduce_andi_all _ _ _ _ _ h2 i)
  · exact real_of_abs_lt (W i) (Host.reduce_andi_all _ _ _ _ _ h3 i)
  · have e := Host.reduce_andi_all _ _ _ _ _ h4 (ix1 i)
    have e' : Ideal.cmp .ogt (Cert.Spec.one
        + Ideal.hostReduceAdd hP.reducesTo_S8192x8192_S8192_d1 A (Ideal.ofBits .f32 0x00000000#32) (ix1 i))
        (Ideal.ofBits .f32 0x00000000#32) = 1#1 := e
    rw [rowsum] at e'
    exact pos_of_cmp _ e'

end Cert.PreFacts

end
-- ==== Proof.Bridge.lean ====
/-
  The algebra of the graph-convolution layer. With every entry of A, X, W a real and every 1 + row sum of A a positive
  real, each degree scale d i = (1 + Σ_j A i j)^(-1/2) is a real, and the two orders of multiplication agree:
    (Σ_j A i j · ((X·W) j c · d j)) · d i  =  Σ_j ((d i · A i j) · d j) · (X·W) j c,
  an identity of finite real sums (distribute the outer factor over the sum, then commute inside each term).
  On the extended reals it needs the finiteness: both sides are coercions of those real sums.
-/
import proofs.«152646_j44229573214372_2_alg».proof.Proof.Spec
import Idealize.ShloMosaic.Lib.IdealHost
import Mathlib.Data.EReal.Basic
import Mathlib.Algebra.BigOperators.Ring.Finset
import Mathlib.Tactic.Ring

noncomputable section

namespace Cert.Bridge

open Idealize.ShloMosaic Idealize.ShloMosaic.ValueIdx Cert.Spec

/-- The law in the reals, over any finite index set: scaling the sum by `di` on the right is scaling each term. -/
theorem real_law {ι : Type*} [Fintype ι] (a s d : ι → ℝ) (di : ℝ) :
    (∑ j, a j * (s j * d j)) * di = ∑ j, ((di * a j) * d j) * s j := by
  rw [Finset.sum_mul]
  exact Finset.sum_congr rfl fun j _ => by ring

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The float literal 1.0 is the real one. -/
theorem one_eq : Cert.Spec.one = ((1 : ℝ) : EReal) := by
  show Ideal.ofBits .f32 0x3F800000#32 = _
  rw [Ideal.ofBits_one_f32]; norm_cast

/-- The kernel's composition at row `i`, column `c`. -/
theorem kernelOut_at (A : SA.Idx → EReal) (X : SX.Idx → EReal) (W : SW.Idx → EReal) (i : Fin 8192) (c : Fin 256) :
    kernelOut A X W (ix2 i c) = (∑ j : Fin 8192, A (ix2 i j) * (sup X W j c * deg A j)) * deg A i := rfl

/-- The reference formula at row `i`, column `c`. -/
theorem refOut_at (A : SA.Idx → EReal) (X : SX.Idx → EReal) (W : SW.Idx → EReal) (i : Fin 8192) (c : Fin 256) :
    refOut A X W (ix2 i c) = ∑ j : Fin 8192, ((deg A i * A (ix2 i j)) * deg A j) * sup X W j c := rfl

theorem kernelOut_eq_refOut (A : Cert.Spec.SA.Idx → EReal) (X : Cert.Spec.SX.Idx → EReal) (W : Cert.Spec.SW.Idx → EReal)
    (hA : ∀ i, ∃ r : ℝ, A i = (r : EReal)) (hX : ∀ i, ∃ r : ℝ, X i = (r : EReal)) (hW : ∀ i, ∃ r : ℝ, W i = (r : EReal))
    (hpos : ∀ i : Fin 8192, (0 : EReal) < Cert.Spec.one + ∑ j : Fin 8192, A (ValueIdx.ix2 i j)) :
    Cert.Spec.kernelOut A X W = Cert.Spec.refOut A X W := by
  choose a ha using hA
  choose x hx using hX
  choose w hw using hW
  -- every degree scale is a real: 1 + row sum is a positive real, so its rsqrt is the real (√·)⁻¹
  have hdeg : ∀ i : Fin 8192, ∃ r : ℝ, deg A i = (r : EReal) := by
    intro i
    have hs : Cert.Spec.one + ∑ j : Fin 8192, A (ix2 i j) = ((1 + ∑ j : Fin 8192, a (ix2 i j) : ℝ) : EReal) := by
      rw [EReal.coe_add, coe_sum, one_eq]
      simp only [ha]
    have hp := hpos i
    rw [hs] at hp
    have hp' : (0 : ℝ) < 1 + ∑ j : Fin 8192, a (ix2 i j) := by exact_mod_cast hp
    refine ⟨(Real.sqrt (1 + ∑ j : Fin 8192, a (ix2 i j)))⁻¹, ?_⟩
    unfold deg
    rw [hs, Ideal.rsqrt_coe, if_neg (not_lt.2 hp'.le), if_neg hp'.ne']
  choose d hd using hdeg
  -- the support is a real
  have hsup : ∀ (r : Fin 8192) (c : Fin 256),
      sup X W r c = ((∑ k : Fin 512, x (ix2 r k) * w (ix2 k c) : ℝ) : EReal) := by
    intro r c
    unfold sup
    rw [coe_sum]
    exact Finset.sum_congr rfl fun k _ => by rw [hx, hw, EReal.coe_mul]
  funext y
  obtain ⟨i, c, rfl⟩ : ∃ (i : Fin 8192) (c : Fin 256), y = ix2 i c := ⟨y 0, y 1, eq_ix2 y⟩
  rw [kernelOut_at, refOut_at]
  simp only [ha, hd, hsup, ← EReal.coe_mul, ← coe_sum]
  exact congrArg _ (real_law _ _ _ _)

end Cert.Bridge

end
-- ==== Proof.lean ====
/-
  The certificate of a graph-convolution layer  out = D · A · D · (X · W),  D = diag (1 + row sums of A)^(-1/2),  computed by a
  kernel in three passes against its plain reference, on the extended reals.

  The kernel computes the column d of degree scales (row sums accumulated over two column blocks, then (1 + ·)^(-1/2)), the
  support X · W scaled row by row by d, and the aggregation (Σ_j A i j · s j c) · d i accumulated over four column blocks; the
  reference computes Σ_j ((d i · A i j) · d j) · (X · W) j c.  Under the precondition — every input finite, every
  1 + row sum of A positive, so that every d i is a positive real — both are the same real number, by distributivity and
  the commutativity of the product.  (Without the positivity a row whose entries sum to -1 has d i = +∞, and the two
  arrangements of the sum differ at the infinities.)

  The frames: each of the three passes runs at every grid point, leaves its input blocks in place and its output block at the
  body's payload; the reference is a straight line of host operations.  The idealization rewrote nothing.
-/
import proofs.«152646_j44229573214372_2_alg».proof.Defs
import proofs.«152646_j44229573214372_2_alg».proof.Proof.Gen.Kernel
import proofs.«152646_j44229573214372_2_alg».proof.Proof.Gen.KernelIdeal
import proofs.«152646_j44229573214372_2_alg».proof.Proof.Gen.ReferenceIdeal
import proofs.«152646_j44229573214372_2_alg».proof.Proof.Gen.Pre_finite_inputs
import proofs.«152646_j44229573214372_2_alg».proof.Proof.Gen.ReferenceIdeal.Read
import proofs.«152646_j44229573214372_2_alg».proof.Proof.K.Run
import proofs.«152646_j44229573214372_2_alg».proof.Proof.KI.RunValue
import proofs.«152646_j44229573214372_2_alg».proof.Proof.RefValue
import proofs.«152646_j44229573214372_2_alg».proof.Proof.PreFacts
import proofs.«152646_j44229573214372_2_alg».proof.Proof.Bridge
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame m ρ

/-- So does the kernel read on the extended reals. -/
theorem frame_ki : Cert.frame_KernelIdeal := fun m ρ _ => Cert.KernelIdeal.Hand.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the three passes' composition of the arguments and the
    reference's at its one sum; under the precondition the two are one function. -/
theorem algebraic : Cert.algebraic_KernelIdeal_ReferenceIdeal := by
  intro m ρ m' ρ' hpre hagree
  refine ⟨fun c => Cert.Spec.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨hA, hX, hW, hpos⟩ := Cert.PreFacts.of_pre _ _ _ (hpre c)
  rw [(hagree c).1, (hagree c).2.1, (hagree c).2.2, Cert.ReferenceIdeal.Read.val_main_v11_eq, Cert.RefValue.ref_eq]
  exact (Cert.Bridge.kernelOut_eq_refOut _ _ _ hA hX hW hpos).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
